-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S100x2048 : Shape := ⟨2, ![100, 2048]⟩
abbrev S32x2048 : Shape := ⟨2, ![32, 2048]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S100x2048 : S_.BroadcastsInDim S100x2048 (![] : Fin 0 → Fin S100x2048.rank)
  reducesTo_S100x2048_S_d0_1 : S100x2048.ReducesTo [0, 1] S_
  bcast_S_S32x2048 : S_.BroadcastsInDim S32x2048 (![] : Fin 0 → Fin S32x2048.rank)
  reducesTo_S32x2048_S_d0_1 : S32x2048.ReducesTo [0, 1] S_

variable [Facts]

def fn {F : FTy → Type} [FloatOps F] (main_arg0 : FVec F S4096x32 .f32) (main_arg1 : FVec F S100x2048 .f32) (main_arg2 : FVec F S32x2048 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S100x2048 .f32 := Host.absf main_arg1
  let main_cst_0 : FVec F S_ .f32 := constant S_ .f32 0x7F800000#32
  let main_v5 : FVec F S100x2048 .f32 := broadcastInDim S100x2048 ![] bcast_S_S100x2048 main_cst_0
  let main_v6 : IVec S100x2048 1 := cmpf .olt main_v4 main_v5
  let main_c_1 : IVec S_ 1 := constantI S_ 1 1#1
  let main_v7 : IVec S_ 1 := (fun x v => Host.reduce IntOp.andi x v reducesTo_S100x2048_S_d0_1 h_S_) main_v6 main_c_1
  let main_v8 : IVec S_ 1 := andi main_v3 main_v7
  let main_v9 : FVec F S32x2048 .f32 := Host.absf main_arg2
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : IVec S_ 1 := andi main_v8 main_v12
  main_v13
-- ==== Kernel.lean ====
abbrev S4096x32 : Shape := ⟨2, ![4096, 32]⟩
abbrev S100x2048 : Shape := ⟨2, ![100, 2048]⟩
abbrev S32x2048 : Shape := ⟨2, ![32, 2048]⟩
abbrev S_ : Shape := ⟨0, ![]⟩
abbrev S32 : Shape := ⟨1, ![32]⟩
abbrev S1x32 : Shape := ⟨2, ![1, 32]⟩
abbrev S32x1x2048 : Shape := ⟨3, ![32, 1, 2048]⟩
abbrev S1x100x2048 : Shape := ⟨3, ![1, 100, 2048]⟩
abbrev S32x100x2048 : Shape := ⟨3, ![32, 100, 2048]⟩
abbrev S3200x2048 : Shape := ⟨2, ![3200, 2048]⟩
abbrev S4096x2048 : Shape := ⟨2, ![4096, 2048]⟩
abbrev S256x32 : Shape := ⟨2, ![256, 32]⟩
abbrev S256x2048 : Shape := ⟨2, ![256, 2048]⟩
abbrev S256x3200 : Shape := ⟨2, ![256, 3200]⟩
abbrev S256x1 : Shape := ⟨2, ![256, 1]⟩

abbrev nBuf : Space → Nat
  | .hbm => 53
  | .vmem => 5
  | .smem => 0
  | _ => 0

abbrev bufTy : (tb : Table) → Fin (tcTables nBuf tb) → BufTy
  | .hbm, ⟨0, _⟩ => ⟨S4096x32, .f32⟩
  | .hbm, ⟨1, _⟩ => ⟨S100x2048, .f32⟩
  | .hbm, ⟨2, _⟩ => ⟨S32x2048, .f32⟩
  | .hbm, ⟨3, _⟩ => ⟨S_, .f32⟩
  | .hbm, ⟨4, _⟩ => ⟨S32, .f32⟩
  | .hbm, ⟨5, _⟩ => ⟨S1x32, .f32⟩
  | .hbm, ⟨6, _⟩ => ⟨S_, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S_, .f32⟩
  | .hbm, ⟨11, _⟩ => ⟨S1x32, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .i1⟩
  | .hbm, ⟨18, _⟩ => ⟨S_, .f32⟩
  | .hbm, ⟨19, _⟩ => ⟨S4096x32, .f32⟩
  | .hbm, ⟨20, _⟩ => ⟨S4096x32, .f32⟩
  | .hbm, ⟨21, _⟩ => ⟨S_, .f32⟩
  | .hbm, ⟨22, _⟩ => ⟨S4096x32, .f32⟩
  | .hbm, ⟨23, _⟩ => ⟨S4096x32, .i1⟩
  | .hbm, ⟨24, _⟩ => ⟨S_, .f32⟩
  | .hbm, ⟨25, _⟩ => ⟨S4096x32, .f32⟩
  | .hbm, ⟨26, _⟩ => ⟨S4096x32, .f32⟩
  | .hbm, ⟨27, _⟩ => ⟨S_, .f32⟩
  | .hbm, ⟨28, _⟩ => ⟨S4096x32, .f32⟩
  | .hbm, ⟨29, _⟩ => ⟨S4096x32, .i1⟩
  | .hbm, ⟨30, _⟩ => ⟨S_, .f32⟩
  | .hbm, ⟨31, _⟩ => ⟨S4096x32, .f32⟩
  | .hbm, ⟨32, _⟩ => ⟨S4096x32, .f32⟩
  | .hbm, ⟨33, _⟩ => ⟨S_, .f32⟩
  | .hbm, ⟨34, _⟩ => ⟨S4096x32, .f32⟩
  | .hbm, ⟨35, _⟩ => ⟨S4096x32, .f32⟩
  | .hbm, ⟨36, _⟩ => ⟨S4096x32, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S4096x32, .i32⟩
  | .hbm, ⟨41, _⟩ => ⟨S4096x32, .i32⟩
  | .hbm, ⟨42, _⟩ => ⟨S_, .i32⟩
  | .hbm, ⟨43, _⟩ => ⟨S4096x32, .i32⟩
  | .hbm, ⟨44, _⟩ => ⟨S4096x32, .i32⟩
  | .hbm, ⟨45, _⟩ => ⟨S32x1x2048, .f32⟩
  | .hbm, ⟨46, _⟩ => ⟨S1x100x2048, .f32⟩
  | .hbm, ⟨47, _⟩ => ⟨S32x100x2048, .f32⟩
  | .hbm, ⟨48, _⟩ => ⟨S32x100x2048, .f32⟩
  | .hbm, ⟨49, _⟩ => ⟨S32x100x2048, .f32⟩
  | .hbm, ⟨50, _⟩ => ⟨S3200x2048, .f32⟩
  | .hbm, ⟨51, _⟩ => ⟨S3200x2048, .bf16⟩
  | .hbm, ⟨52, _⟩ => ⟨S4096x2048, .f32⟩
  | .local _ .vmem, ⟨0, _⟩ => ⟨S256x32, .i32⟩
  | .local _ .vmem, ⟨1, _⟩ => ⟨S256x32, .i32⟩
  | .local _ .vmem, ⟨2, _⟩ => ⟨S3200x2048, .bf16⟩
  | .local _ .vmem, ⟨3, _⟩ => ⟨S256x2048, .f32⟩
  | .local _ .vmem, ⟨4, _⟩ => ⟨S256x2048, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_cst : Ref sig .tc := ⟨.hbm, 18, rfl⟩
abbrev main_call0_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_cst_1 : Ref sig .tc := ⟨.hbm, 24, rfl⟩
abbrev main_call0_call1_v0 : Ref sig .tc := ⟨.hbm, 25, rfl⟩
abbrev main_call0_v4 : Ref sig .tc := ⟨.hbm, 26, rfl⟩
abbrev main_call0_cst_2 : Ref sig .tc := ⟨.hbm, 27, rfl⟩
abbrev main_call0_v5 : Ref sig .tc := ⟨.hbm, 28, rfl⟩
abbrev main_call0_v6 : Ref sig .tc := ⟨.hbm, 29, rfl⟩
abbrev main_call0_cst_3 : Ref sig .tc := ⟨.hbm, 30, rfl⟩
abbrev main_call0_call2_v0 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4096x32_S32_d0 : S4096x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S32x2048_S32x1x2048_0_2 : S32x2048.BroadcastsInDim S32x1x2048 (![0, 2] : Fin 2 → Fin S32x1x2048.rank)
  bcast_S100x2048_S1x100x2048_1_2 : S100x2048.BroadcastsInDim S1x100x2048 (![1, 2] : Fin 2 → Fin S1x100x2048.rank)
  bcast_S32x1x2048_S32x100x2048_0_1_2 : S32x1x2048.BroadcastsInDim S32x100x2048 (![0, 1, 2] : Fin 3 → Fin S32x100x2048.rank)
  bcast_S1x100x2048_S32x100x2048_0_1_2 : S1x100x2048.BroadcastsInDim S32x100x2048 (![0, 1, 2] : Fin 3 → Fin S32x100x2048.rank)
  shapeCasts_S32x100x2048_S3200x2048 : S32x100x2048.ShapeCasts S3200x2048
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  iota_S256x32_d1_w32 : S256x32.Iotas .tc 32 [1]
  iota_S256x3200_d1_w32 : S256x3200.Iotas .tc 32 [1]
  slices_S256x32_o0_0_S256x1 : S256x32.Slices ![0, 0] S256x1
  broadcasts_S256x1_S256x3200 : S256x1.Broadcasts S256x3200
  natLt_1_32 : 1 < 32
  slices_S256x32_o0_1_S256x1 : S256x32.Slices ![0, 1] S256x1
  slices_S256x32_o0_2_S256x1 : S256x32.Slices ![0, 2] S256x1
  slices_S256x32_o0_3_S256x1 : S256x32.Slices ![0, 3] S256x1
  slices_S256x32_o0_4_S256x1 : S256x32.Slices ![0, 4] S256x1
  slices_S256x32_o0_5_S256x1 : S256x32.Slices ![0, 5] S256x1
  slices_S256x32_o0_6_S256x1 : S256x32.Slices ![0, 6] S256x1
  slices_S256x32_o0_7_S256x1 : S256x32.Slices ![0, 7] S256x1
  slices_S256x32_o0_8_S256x1 : S256x32.Slices ![0, 8] S256x1
  slices_S256x32_o0_9_S256x1 : S256x32.Slices ![0, 9] S256x1
  slices_S256x32_o0_10_S256x1 : S256x32.Slices ![0, 10] S256x1
  slices_S256x32_o0_11_S256x1 : S256x32.Slices ![0, 11] S256x1
  slices_S256x32_o0_12_S256x1 : S256x32.Slices ![0, 12] S256x1
  slices_S256x32_o0_13_S256x1 : S256x32.Slices ![0, 13] S256x1
  slices_S256x32_o0_14_S256x1 : S256x32.Slices ![0, 14] S256x1
  slices_S256x32_o0_15_S256x1 : S256x32.Slices ![0, 15] S256x1
  slices_S256x32_o0_16_S256x1 : S256x32.Slices ![0, 16] S256x1
  slices_S256x32_o0_17_S256x1 : S256x32.Slices ![0, 17] S256x1
  slices_S256x32_o0_18_S256x1 : S256x32.Slices ![0, 18] S256x1
  slices_S256x32_o0_19_S256x1 : S256x32.Slices ![0, 19] S256x1
  slices_S256x32_o0_20_S256x1 : S256x32.Slices ![0, 20] S256x1
  slices_S256x32_o0_21_S256x1 : S256x32.Slices ![0, 21] S256x1
  slices_S256x32_o0_22_S256x1 : S256x32.Slices ![0, 22] S256x1
  slices_S256x32_o0_23_S256x1 : S256x32.Slices ![0, 23] S256x1
  slices_S256x32_o0_24_S256x1 : S256x32.Slices ![0, 24] S256x1
  slices_S256x32_o0_25_S256x1 : S256x32.Slices ![0, 25] S256x1
  slices_S256x32_o0_26_S256x1 : S256x32.Slices ![0, 26] S256x1
  slices_S256x32_o0_27_S256x1 : S256x32.Slices ![0, 27] S256x1
  slices_S256x32_o0_28_S256x1 : S256x32.Slices ![0, 28] S256x1
  slices_S256x32_o0_29_S256x1 : S256x32.Slices ![0, 29] S256x1
  slices_S256x32_o0_30_S256x1 : S256x32.Slices ![0, 30] S256x1
  slices_S256x32_o0_31_S256x1 : S256x32.Slices ![0, 31] S256x1
  inb_S3200x2048_S3200x2048_0_0 : ∀ a, (![0, 0] : Fin 2 → Nat) a + S3200x2048.size a ≤ S3200x2048.size a
  h_S3200x2048 : 0 < S3200x2048.numel
  shapeCasts_S3200x2048_S3200x2048 : S3200x2048.ShapeCasts S3200x2048
  inb_S256x2048_S256x2048_0_0 : ∀ a, (![0, 0] : Fin 2 → Nat) a + S256x2048.size a ≤ S256x2048.size a
  h_S256x2048 : 0 < S256x2048.numel
  dot_S256x3200_S3200x2048_S256x2048_1_0_0_1_n_n_wf : DotDims.WF S256x3200 S3200x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S4096x32.size a
  hwx0_0 : ∀ i : grid0.Coords, EltTy.bits .i32 = 32 ∨ (Rect.block (s := S4096x32) S256x32.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3200x2048.size a ≤ S3200x2048.size a
  hwx0_1 : ∀ i : grid0.Coords, EltTy.bits .bf16 = 32 ∨ (Rect.block (s := S3200x2048) S3200x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)

variable [Facts₀]

def dot_S256x3200_S3200x2048_S256x2048_1_0_0_1_n_n : DotDims S256x3200 S3200x2048 S256x2048 where
  lhsContracting := [1]
  rhsContracting := [0]
  lhsNonContracting := [0]
  rhsNonContracting := [1]
  lhsBatch := []
  rhsBatch := []
  wf := dot_S256x3200_S3200x2048_S256x2048_1_0_0_1_n_n_wf

abbrev win0_0 : Pipeline.Window sig grid0 :=
  Pipeline.Window.ofSpec (Memref.whole main_v15) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S3200x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32 : Shape := ⟨2, ![4096, 32]⟩
abbrev S100x2048 : Shape := ⟨2, ![100, 2048]⟩
abbrev S32x2048 : Shape := ⟨2, ![32, 2048]⟩
abbrev S_ : Shape := ⟨0, ![]⟩
abbrev S32 : Shape := ⟨1, ![32]⟩
abbrev S1x32 : Shape := ⟨2, ![1, 32]⟩
abbrev S4096x32x1 : Shape := ⟨3, ![4096, 32, 1]⟩
abbrev S4096x32x2048 : Shape := ⟨3, ![4096, 32, 2048]⟩
abbrev S1x32x2048 : Shape := ⟨3, ![1, 32, 2048]⟩
abbrev S4096x2048 : Shape := ⟨2, ![4096, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S100x2048, .f32⟩
  | .hbm, ⟨2, _⟩ => ⟨S32x2048, .f32⟩
  | .hbm, ⟨3, _⟩ => ⟨S_, .f32⟩
  | .hbm, ⟨4, _⟩ => ⟨S32, .f32⟩
  | .hbm, ⟨5, _⟩ => ⟨S1x32, .f32⟩
  | .hbm, ⟨6, _⟩ => ⟨S_, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S_, .f32⟩
  | .hbm, ⟨11, _⟩ => ⟨S1x32, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S_, .f32⟩
  | .hbm, ⟨18, _⟩ => ⟨S4096x32, .f32⟩
  | .hbm, ⟨19, _⟩ => ⟨S4096x32, .f32⟩
  | .hbm, ⟨20, _⟩ => ⟨S4096x32, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S4096x32, .i32⟩
  | .hbm, ⟨25, _⟩ => ⟨S4096x32, .i32⟩
  | .hbm, ⟨26, _⟩ => ⟨S_, .i32⟩
  | .hbm, ⟨27, _⟩ => ⟨S4096x32, .i32⟩
  | .hbm, ⟨28, _⟩ => ⟨S4096x32, .i32⟩
  | .hbm, ⟨29, _⟩ => ⟨S_, .i32⟩
  | .hbm, ⟨30, _⟩ => ⟨S4096x32, .i32⟩
  | .hbm, ⟨31, _⟩ => ⟨S4096x32, .i1⟩
  | .hbm, ⟨32, _⟩ => ⟨S_, .i32⟩
  | .hbm, ⟨33, _⟩ => ⟨S4096x32, .i32⟩
  | .hbm, ⟨34, _⟩ => ⟨S4096x32, .i32⟩
  | .hbm, ⟨35, _⟩ => ⟨S4096x32, .i32⟩
  | .hbm, ⟨36, _⟩ => ⟨S4096x32x1, .i32⟩
  | .hbm, ⟨37, _⟩ => ⟨S4096x32x2048, .f32⟩
  | .hbm, ⟨38, _⟩ => ⟨S1x32x2048, .f32⟩
  | .hbm, ⟨39, _⟩ => ⟨S4096x32x2048, .f32⟩
  | .hbm, ⟨40, _⟩ => ⟨S4096x32x2048, .f32⟩
  | .hbm, ⟨41, _⟩ => ⟨S_, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .i1⟩
  | .hbm, ⟨46, _⟩ => ⟨S_, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_cst_9 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  reducesTo_S4096x32_S32_d0 : S4096x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S32x2048_S1x32x2048_1_2 : S32x2048.BroadcastsInDim S1x32x2048 (![1, 2] : Fin 2 → Fin S1x32x2048.rank)
  bcast_S1x32x2048_S4096x32x2048_0_1_2 : S1x32x2048.BroadcastsInDim S4096x32x2048 (![0, 1, 2] : Fin 3 → Fin S4096x32x2048.rank)
  reducesTo_S4096x32x2048_S4096x2048_d1 : S4096x32x2048.ReducesTo [1] S4096x2048
  bcast_S_S4096x2048 : S_.BroadcastsInDim S4096x2048 (![] : Fin 0 → Fin S4096x2048.rank)
  gather_S100x2048_S4096x32x1_S4096x32x2048_2_0_n_n_0_2_12048_wf : GatherDims.WF S100x2048 S4096x32x1 S4096x32x2048 [2] [0] [] [0] [] 2 ![1, 2048]

variable [Facts₀]

def gather_S100x2048_S4096x32x1_S4096x32x2048_2_0_n_n_0_2_12048 : GatherDims S100x2048 S4096x32x1 S4096x32x2048 where
  offsetDims := [2]
  collapsedSliceDims := [0]
  operandBatchingDims := []
  startIndicesBatchingDims := []
  startIndexMap := [0]
  indexVectorDim := 2
  sliceSizes := ![1, 2048]
  wf := gather_S100x2048_S4096x32x1_S4096x32x2048_2_0_n_n_0_2_12048_wf

class Facts : Prop extends Facts₀ where

variable [Facts]
-- ==== Proof.LibRowIndex.lean ====
/-
  Rows indexed by data: a scatter-add of rows and a gather of rows, read at an index.

  `x.at[idx].add(upd)` over the rows of an `[R, C]` table (one row index per update row, carried as an `[N, 1]` array of
  words) is, at the ideal values, the table's entry plus the sum of the update rows whose index IS that row: the index
  word is read signed and NOT clamped, so a word outside `[0, R)` names no row and its update is dropped. The same
  for a flat `[R]` table of scalars. `x[idx]` over the rows of an `[R, C]` table reads row `min (toNat idx) (R - 1)`: the
  word read signed and CLAMPED into `[0, R - 1]`. The two meet where it matters: a word that names a row for the
  scatter names the same row for the gather (`clampRow_of_eq`).
-/
import Idealize.ShloMosaic.PureOps.Ideal
import Idealize.ShloMosaic.Lib.ValueIdx

noncomputable section

open scoped BigOperators

namespace Cert.RowIndex

open Idealize.ShloMosaic Idealize.ShloMosaic.ValueIdx

/-! ## The dimension numbers -/

/-- A scatter of `[N, C]` update rows into the rows of an `[R, C]` table, the row named by an `[N, 1]` array of words. -/
abbrev rowScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R C N w : Nat}

section Scatter
variable (wf : ScatterDims.WF ⟨2, ![R, C]⟩ ⟨2, ![N, 1]⟩ ⟨2, ![N, C]⟩ [1] [0] [0] 1)
  (j : (⟨2, ![N, C]⟩ : Shape).Idx) (idx : IVec ⟨2, ![N, 1]⟩ w)

theorem rowScatter_start0 : (rowScatter R C N wf).start j idx 0 = (idx (ix2 (j 0) (0 : Fin 1))).toInt := by
  unfold ScatterDims.start
  rw [dif_pos (show (0 : Fin 2) ∈ (rowScatter R C N wf).scatterDimsToOperandDims from List.mem_singleton.mpr rfl)]
  have hsi : (rowScatter R C N wf).siIdx j ⟨List.idxOf (0 : Fin 2) (rowScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatter R C N wf).start j idx 1 = 0 := by
  unfold ScatterDims.start
  rw [dif_neg (show ¬ (1 : Fin 2) ∈ (rowScatter R C N wf).scatterDimsToOperandDims from
    (by decide : ¬ (1 : Fin 2) ∈ ([0] : List (Fin 2))))]

theorem rowScatter_window0 : (rowScatter R C N wf).window j 0 = 0 := by
  unfold ScatterDims.window
  rw [dif_neg (show ¬ (0 : Fin 2) ∈ (rowScatter R C N wf).sKept from
    (by decide : ¬ (0 : Fin 2) ∈ ([1] : List (Fin 2))))]

theorem rowScatter_window1 : (rowScatter R C N wf).window j 1 = (j 1).val := by
  unfold ScatterDims.window
  rw [dif_pos (show (1 : Fin 2) ∈ (rowScatter R C N wf).sKept from
    (by decide : (1 : Fin 2) ∈ ([1] : List (Fin 2))))]
  rfl

/-- An update row lands on the table row its index word names, column for column; a word outside `[0, R)` lands nowhere. -/
theorem rowScatter_resultIdx?_eq_some_iff (i : (⟨2, ![R, C]⟩ : Shape).Idx) :
    (rowScatter R C N wf).resultIdx? j idx = some i
      ↔ (idx (ix2 (j 0) (0 : Fin 1))).toInt = ((i 0).val : ℤ) ∧ (j 1).val = (i 1).val := by
  have hs0 := rowScatter_start0 wf j idx
  have hs1 := rowScatter_start1 wf j idx
  have hw0 := rowScatter_window0 wf j
  have hw1 := rowScatter_window1 wf j
  have hi0 := idx2_lt0 i
  have hi1 := idx2_lt1 i
  have hj1 := idx2_lt1 j
  unfold ScatterDims.resultIdx?
  split
  · rename_i h
    rw [Option.some.injEq]
    constructor
    · intro e
      have e0 : ((rowScatter R C N wf).start j idx 0 + ((rowScatter R C N wf).window j 0 : ℤ)).toNat = (i 0).val :=
        congrArg (fun f : (⟨2, ![R, C]⟩ : Shape).Idx => (f 0).val) e
      have e1 : ((rowScatter R C N wf).start j idx 1 + ((rowScatter R C N wf).window j 1 : ℤ)).toNat = (i 1).val :=
        congrArg (fun f : (⟨2, ![R, C]⟩ : Shape).Idx => (f 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowScatter R C N wf).start j idx 0 + ((rowScatter R C N wf).window j 0 : ℤ)).toNat = (i 0).val
        rw [hs0, hw0]; omega
      | ⟨1, _⟩ =>
        show ((rowScatter R C N wf).start j idx 1 + ((rowScatter R C N wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (rowScatter R C N wf).start j idx 0 + ((rowScatter R C N wf).window j 0 : ℤ)
          ∧ (rowScatter R C N wf).start j idx 0 + ((rowScatter R C N wf).window j 0 : ℤ) < (R : ℤ)
        rw [hs0, hw0]; omega
      | ⟨1, _⟩ =>
        show 0 ≤ (rowScatter R C N wf).start j idx 1 + ((rowScatter R C N wf).window j 1 : ℤ)
          ∧ (rowScatter R C N wf).start j idx 1 + ((rowScatter R C N wf).window j 1 : ℤ) < (C : ℤ)
        rw [hs1, hw1]; omega

/-- THE ROW SCATTER-ADD READ AT `(g, c)`, at the ideal values: the table's entry plus the sum, over the update rows whose
    index word is `g`, of their entry in column `c`. -/
theorem rowScatterAdd_apply (x : FVec Ideal ⟨2, ![R, C]⟩ .f32) (upd : FVec Ideal ⟨2, ![N, C]⟩ .f32) (g : Fin R) (c : Fin C) :
    Host.scatterAdd (F := Ideal) (rowScatter R C N wf) x idx upd (ix2 g c)
      = x (ix2 g c) + ∑ n ∈ Finset.univ.filter (fun n : Fin N => (idx (ix2 n (0 : Fin 1))).toInt = (g.val : ℤ)), upd (ix2 n c) := by
  show x (ix2 g c) + ∑ j ∈ Finset.univ.filter (fun j => (rowScatter R C N wf).resultIdx? j idx = some (ix2 g c)), upd j = _
  congr 1
  rw [Finset.sum_filter, sum_idx2, Finset.sum_filter]
  refine Finset.sum_congr rfl fun n _ => ?_
  by_cases hn : (idx (ix2 n (0 : Fin 1))).toInt = (g.val : ℤ)
  · rw [if_pos hn]
    rw [Finset.sum_eq_single c]
    · rw [if_pos ((rowScatter_resultIdx?_eq_some_iff wf (ix2 n c) idx (ix2 g c)).2 ⟨hn, rfl⟩)]
    · intro b _ hb
      rw [if_neg]
      intro h
      exact hb (Fin.ext ((rowScatter_resultIdx?_eq_some_iff wf (ix2 n b) idx (ix2 g c)).1 h).2)
    · intro h; exact absurd (Finset.mem_univ c) h
  · rw [if_neg hn]
    refine Finset.sum_eq_zero fun b _ => ?_
    rw [if_neg]
    intro h
    exact hn ((rowScatter_resultIdx?_eq_some_iff wf (ix2 n b) idx (ix2 g c)).1 h).1

end Scatter

/-! ## The flat table: one scalar per row -/

/-- A scatter of `[N]` scalars into an `[R]` table, the entry named by an `[N, 1]` array of words. -/
abbrev flatScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

section Flat
variable (wf : ScatterDims.WF ⟨1, ![R]⟩ ⟨2, ![N, 1]⟩ ⟨1, ![N]⟩ [] [0] [0] 1)
  (j : (⟨1, ![N]⟩ : Shape).Idx) (idx : IVec ⟨2, ![N, 1]⟩ w)

theorem flatScatter_start0 : (flatScatter R N wf).start j idx 0 = (idx (ix2 (j 0) (0 : Fin 1))).toInt := by
  unfold ScatterDims.start
  rw [dif_pos (show (0 : Fin 1) ∈ (flatScatter R N wf).scatterDimsToOperandDims from List.mem_singleton.mpr rfl)]
  have hsi : (flatScatter R N wf).siIdx j ⟨List.idxOf (0 : Fin 1) (flatScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 : (flatScatter R N wf).window j 0 = 0 := by
  unfold ScatterDims.window
  rw [dif_neg (show ¬ (0 : Fin 1) ∈ (flatScatter R N wf).sKept from
    (by decide : ¬ (0 : Fin 1) ∈ ([] : List (Fin 1))))]

/-- A scalar update lands on the entry its index word names; a word outside `[0, R)` lands nowhere. -/
theorem flatScatter_resultIdx?_eq_some_iff (i : (⟨1, ![R]⟩ : Shape).Idx) :
    (flatScatter R N wf).resultIdx? j idx = some i ↔ (idx (ix2 (j 0) (0 : Fin 1))).toInt = ((i 0).val : ℤ) := by
  have hs0 := flatScatter_start0 wf j idx
  have hw0 := flatScatter_window0 wf j
  have hi0 : (i 0).val < R := (i 0).isLt
  unfold ScatterDims.resultIdx?
  split
  · rename_i h
    rw [Option.some.injEq]
    constructor
    · intro e
      have e0 : ((flatScatter R N wf).start j idx 0 + ((flatScatter R N wf).window j 0 : ℤ)).toNat = (i 0).val :=
        congrArg (fun f : (⟨1, ![R]⟩ : Shape).Idx => (f 0).val) e
      have h0 := (h 0).1
      rw [hs0, hw0] at e0 h0
      omega
    · intro e0
      funext a
      refine Fin.ext ?_
      match a with
      | ⟨0, _⟩ =>
        show ((flatScatter R N wf).start j idx 0 + ((flatScatter R N wf).window j 0 : ℤ)).toNat = (i 0).val
        rw [hs0, hw0]; omega
  · rename_i h
    constructor
    · intro e; cases e
    · intro e0
      exfalso; apply h
      intro a
      match a with
      | ⟨0, _⟩ =>
        show 0 ≤ (flatScatter R N wf).start j idx 0 + ((flatScatter R N wf).window j 0 : ℤ)
          ∧ (flatScatter R N wf).start j idx 0 + ((flatScatter R N wf).window j 0 : ℤ) < (R : ℤ)
        rw [hs0, hw0]; omega

/-- THE FLAT SCATTER-ADD READ AT `g`, at the ideal values: the table's entry plus the sum of the updates whose index word is `g`. -/
theorem flatScatterAdd_apply (x : FVec Ideal ⟨1, ![R]⟩ .f32) (upd : FVec Ideal ⟨1, ![N]⟩ .f32) (g : Fin R) :
    Host.scatterAdd (F := Ideal) (flatScatter R N wf) x idx upd (ix1 g)
      = x (ix1 g) + ∑ n ∈ Finset.univ.filter (fun n : Fin N => (idx (ix2 n (0 : Fin 1))).toInt = (g.val : ℤ)), upd (ix1 n) := by
  show x (ix1 g) + ∑ j ∈ Finset.univ.filter (fun j => (flatScatter R N wf).resultIdx? j idx = some (ix1 g)), upd j = _
  congr 1
  refine Finset.sum_bij (fun (j : (⟨1, ![N]⟩ : Shape).Idx) _ => (j 0 : Fin N)) ?_ ?_ ?_ ?_
  · intro j hj
    exact Finset.mem_filter.2 ⟨Finset.mem_univ _,
      (flatScatter_resultIdx?_eq_some_iff wf j idx (ix1 g)).1 (Finset.mem_filter.1 hj).2⟩
  · intro a _ b _ hab
    rw [eq_ix1 a, eq_ix1 b]
    exact congrArg ix1 hab
  · intro n hn
    exact ⟨ix1 n, Finset.mem_filter.2 ⟨Finset.mem_univ _,
      (flatScatter_resultIdx?_eq_some_iff wf (ix1 n) idx (ix1 g)).2 (Finset.mem_filter.1 hn).2⟩, rfl⟩
  · intro j _
    exact congrArg upd (eq_ix1 j)

end Flat

/-! ## The row gather -/

/-- A gather of whole rows of an `[R, C]` table, the row named by an `[N, 1]` array of words. -/
abbrev rowGather (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a word names for a gather from `R` rows: read signed, clamped into `[0, R - 1]`. -/
def clampRow (R : Nat) (hR : 0 < R) {w : Nat} (b : BitVec w) : Fin R := ⟨min b.toInt.toNat (R - 1), by omega⟩

/-- A word that names a row for the scatter (its signed value IS the row) names the same row for the gather. -/
theorem clampRow_of_eq (hR : 0 < R) (b : BitVec w) (g : Fin R) (h : b.toInt = (g.val : ℤ)) : clampRow R hR b = g := by
  refine Fin.ext ?_
  show min b.toInt.toNat (R - 1) = g.val
  have := g.isLt
  omega

/-- THE ROW GATHER READ AT `(n, c)`: the table at row `clampRow` of the `n`-th index word, column `c`. -/
theorem rowGather_apply {α : Type} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) :
    Host.gather (rowGather R C N wf) x idx (ix2 n c) = x (ix2 (clampRow R hR (idx (ix2 n (0 : Fin 1)))) c) := by
  unfold Host.gather
  congr 1
  funext a
  refine Fin.ext ?_
  match a with
  | ⟨0, _⟩ =>
    show (rowGather R C N wf).start (ix2 n c) idx 0 + (rowGather R C N wf).batchCoord (ix2 n c) 0
      + (rowGather R C N wf).offCoord (ix2 n c) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C N wf).startIndexMap from List.mem_singleton.mpr rfl)]
    have hsi : (rowGather R C N wf).siIdx (ix2 n c) ⟨List.idxOf (0 : Fin 2) (rowGather R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather R C N wf).start (ix2 n c) idx 1 + (rowGather R C N wf).batchCoord (ix2 n c) 1
      + (rowGather R C N wf).offCoord (ix2 n c) 1 = c.val
    rw [GatherDims.batchCoord_eq_zero _ _ _ List.not_mem_nil]
    unfold GatherDims.start
    rw [dif_neg (show ¬ (1 : Fin 2) ∈ (rowGather R C N wf).startIndexMap from
      (by decide : ¬ (1 : Fin 2) ∈ ([0] : List (Fin 2))))]
    unfold GatherDims.offCoord
    rw [dif_pos (show (1 : Fin 2) ∈ (rowGather R C N wf).sKept from
      (by decide : (1 : Fin 2) ∈ ([1] : List (Fin 2))))]
    simp only [Nat.zero_add, Nat.add_zero]
    rfl

/-! ## Counting on the extended reals -/

/-- A sum of copies of one extended real is the count times it — at the infinities too, and for the empty sum (`0 · v = 0`):
    a product by a nonnegative factor distributes over a sum of nonnegative terms, which is all the induction needs. -/
theorem sum_const_eq_card_mul {ι : Type} [DecidableEq ι] (s : Finset ι) (v : EReal) :
    ∑ _n ∈ s, v = (∑ _n ∈ s, (1 : EReal)) * v := by
  induction s using Finset.induction_on with
  | empty => simp
  | insert a s ha ih =>
    rw [Finset.sum_insert ha, Finset.sum_insert ha, ih,
      EReal.right_distrib_of_nonneg zero_le_one (Finset.sum_nonneg fun _ _ => zero_le_one), one_mul]

end Cert.RowIndex

end
-- ==== Proof.EmbedSpec.lean ====
/-
  The hyperdimensional embedding both programs compute, as one function of the three argument arrays.

  From features `x : [4096, 32]`, a level table `W : [100, 2048]` and a position table `P : [32, 2048]`:
    * each feature column is rescaled by its own minimum and maximum over the 4096 rows,
      `u(r, c) = (x(r, c) - min_c) / max (max_c - min_c) ε`, and turned into a LEVEL word, the integer part of `99 · u`
      clipped into `[0, 99]` (`unitScale`, `levels`);
    * row `r` of the result binds, channel by channel, the level's row of `W` with the channel's row of `P` and adds the
      32 products: `s(r, d) = ∑ c, W(level(r, c), d) · P(c, d)` (`bindSum`);
    * the result is the sign quantisation of that sum: `-1` where `s < 0`, else `1` (`quantize`, `G`).
  One program passes `u` through a guard that replaces an infinite entry by the largest finite float of its sign before
  the level is taken (`noNan`); on finite features `u` is a real number everywhere — a real numerator over a real
  denominator that is at least `ε > 0` — so the guard changes nothing (`noNan_unitScale`). That is the one place where
  finiteness of the inputs is used. The other program reads its table rows through a clamp and a wrap of negative
  words, both idle on a word already in `[0, 99]` (`clipWord_bounds`, `wrapNeg_of_nonneg`).
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«109464_j38809324486986_2_alg».proof.Proof.LibRowIndex

noncomputable section

open scoped BigOperators

namespace Cert.Embed

open Idealize.ShloMosaic Idealize.ShloMosaic.ValueIdx Cert.RowIndex

/-! ## Shapes and their relations -/

abbrev SFeat : Shape := ⟨2, ![4096, 32]⟩
abbrev SVal : Shape := ⟨2, ![100, 2048]⟩
abbrev SPos : Shape := ⟨2, ![32, 2048]⟩
abbrev SOut : Shape := ⟨2, ![4096, 2048]⟩
abbrev S0 : Shape := ⟨0, ![]⟩
abbrev SCol : Shape := ⟨1, ![32]⟩
abbrev SRow : Shape := ⟨2, ![1, 32]⟩
abbrev SPos3 : Shape := ⟨3, ![32, 1, 2048]⟩
abbrev SVal3 : Shape := ⟨3, ![1, 100, 2048]⟩
abbrev SBound3 : Shape := ⟨3, ![32, 100, 2048]⟩
abbrev SBound : Shape := ⟨2, ![3200, 2048]⟩

theorem red : SFeat.ReducesTo [0] SCol := by decide
theorem red' : SFeat.Reduces [0] SCol := by decide
theorem pos0 : 0 < S0.numel := by decide
theorem bCR : SCol.BroadcastsInDim SRow (![1] : Fin 1 → Fin SRow.rank) := by decide
theorem b0R : S0.BroadcastsInDim SRow (![] : Fin 0 → Fin SRow.rank) := by decide
theorem bRF : SRow.BroadcastsInDim SFeat (![0, 1] : Fin 2 → Fin SFeat.rank) := by decide
theorem b0F : S0.BroadcastsInDim SFeat (![] : Fin 0 → Fin SFeat.rank) := by decide
theorem bP3 : SPos.BroadcastsInDim SPos3 (![0, 2] : Fin 2 → Fin SPos3.rank) := by decide
theorem bV3 : SVal.BroadcastsInDim SVal3 (![1, 2] : Fin 2 → Fin SVal3.rank) := by decide
theorem bPB : SPos3.BroadcastsInDim SBound3 (![0, 1, 2] : Fin 3 → Fin SBound3.rank) := by decide
theorem bVB : SVal3.BroadcastsInDim SBound3 (![0, 1, 2] : Fin 3 → Fin SBound3.rank) := by decide
theorem castB : SBound3.ShapeCasts SBound := by decide
theorem bfLt : FTy.bits .bf16 < FTy.bits .f32 := by decide

/-! ## The level words -/

/-- A column's minimum over the rows (the fold of `min` from `+∞`) … -/
def colMin (x : FVec Ideal SFeat .f32) : FVec Ideal SCol .f32 :=
  Host.reduce FloatOps.minimumf x (constant S0 .f32 0x7F800000#32) red pos0
/-- … and its maximum (the fold of `max` from `-∞`). -/
def colMax (x : FVec Ideal SFeat .f32) : FVec Ideal SCol .f32 :=
  Host.reduce FloatOps.maximumf x (constant S0 .f32 0xFF800000#32) red pos0

/-- Each feature minus its column's minimum, over the column's range floored at `ε` (the f32 nearest `1e-6`). -/
def unitScale (x : FVec Ideal SFeat .f32) : FVec Ideal SFeat .f32 :=
  Host.divf (subf x (broadcastInDim SFeat ![0, 1] bRF (broadcastInDim SRow ![1] bCR (colMin x))))
    (broadcastInDim SFeat ![0, 1] bRF
      (maximumf (subf (broadcastInDim SRow ![1] bCR (colMax x)) (broadcastInDim SRow ![1] bCR (colMin x)))
        (broadcastInDim SRow ![] b0R (constant S0 .f32 0x358637BD#32))))

/-- The guard on one entry: an entry that differs from itself becomes `0`, `+∞` the largest finite float, `-∞` its negative. -/
def guard (a : Ideal .f32) : Ideal .f32 :=
  Scalar.select
    (FloatOps.cmpf .oeq
      (Scalar.select (FloatOps.cmpf .oeq (Scalar.select (FloatOps.cmpf .une a a) (Ideal.ofBits .f32 0x00000000#32) a)
        (Ideal.ofBits .f32 0x7F800000#32)) (Ideal.ofBits .f32 0x7F7FFFFF#32)
        (Scalar.select (FloatOps.cmpf .une a a) (Ideal.ofBits .f32 0x00000000#32) a))
      (Ideal.ofBits .f32 0xFF800000#32))
    (Ideal.ofBits .f32 0xFF7FFFFF#32)
    (Scalar.select (FloatOps.cmpf .oeq (Scalar.select (FloatOps.cmpf .une a a) (Ideal.ofBits .f32 0x00000000#32) a)
      (Ideal.ofBits .f32 0x7F800000#32)) (Ideal.ofBits .f32 0x7F7FFFFF#32)
      (Scalar.select (FloatOps.cmpf .une a a) (Ideal.ofBits .f32 0x00000000#32) a))

/-- The guard over an array, as three selects against splat constants. -/
def noNan (q : FVec Ideal SFeat .f32) : FVec Ideal SFeat .f32 :=
  select
    (cmpf .oeq
      (select (cmpf .oeq (select (cmpf .une q q) (broadcastInDim SFeat ![] b0F (constant S0 .f32 0x00000000#32)) q)
        (broadcastInDim SFeat ![] b0F (constant S0 .f32 0x7F800000#32)))
        (broadcastInDim SFeat ![] b0F (constant S0 .f32 0x7F7FFFFF#32))
        (select (cmpf .une q q) (broadcastInDim SFeat ![] b0F (constant S0 .f32 0x00000000#32)) q))
      (broadcastInDim SFeat ![] b0F (constant S0 .f32 0xFF800000#32)))
    (broadcastInDim SFeat ![] b0F (constant S0 .f32 0xFF7FFFFF#32))
    (select (cmpf .oeq (select (cmpf .une q q) (broadcastInDim SFeat ![] b0F (constant S0 .f32 0x00000000#32)) q)
      (broadcastInDim SFeat ![] b0F (constant S0 .f32 0x7F800000#32)))
      (broadcastInDim SFeat ![] b0F (constant S0 .f32 0x7F7FFFFF#32))
      (select (cmpf .une q q) (broadcastInDim SFeat ![] b0F (constant S0 .f32 0x00000000#32)) q))

theorem noNan_apply (q : FVec Ideal SFeat .f32) (i : SFeat.Idx) : noNan q i = guard (q i) := rfl

/-- A word clipped into `[0, 99]` as signed integers: the maximum with `0`, then the minimum with `99`. -/
def clipWord (y : BitVec 32) : BitVec 32 := IntOp.minsi 99#32 (IntOp.maxsi 0#32 y)

/-- The level words of a rescaled array: `99 ·` each entry, its integer part, clipped into `[0, 99]`. -/
def levels (n : FVec Ideal SFeat .f32) : IVec SFeat 32 :=
  minsi (broadcastInDim SFeat ![] b0F (id (constantI S0 32 99#32)))
    (maxsi (broadcastInDim SFeat ![] b0F (id (constantI S0 32 0#32)))
      (fptosi 32 (mulf n (broadcastInDim SFeat ![] b0F (constant S0 .f32 0x42C60000#32)))))

theorem levels_apply (n : FVec Ideal SFeat .f32) (i : SFeat.Idx) :
    levels n i = clipWord (FloatOps.fptosi 32 (n i * Ideal.ofBits .f32 0x42C60000#32)) := rfl

/-- A clipped word is in `[0, 99]`. -/
theorem clipWord_bounds (y : BitVec 32) : 0 ≤ (clipWord y).toInt ∧ (clipWord y).toInt ≤ 99 := by
  have h0 : (0#32 : BitVec 32).toInt = 0 := by decide
  have h99 : (99#32 : BitVec 32).toInt = 99 := by decide
  unfold clipWord IntOp.minsi IntOp.maxsi
  by_cases h1 : y.slt 0#32 = true
  · rw [if_pos h1]
    have h2 : ¬ ((99#32 : BitVec 32).slt 0#32 = true) := by decide
    rw [if_neg h2, h0]; omega
  · rw [if_neg h1]
    have hy : 0 ≤ y.toInt := by
      simp only [BitVec.slt, decide_eq_true_eq, not_lt, h0] at h1; exact h1
    by_cases h2 : (99#32 : BitVec 32).slt y = true
    · rw [if_pos h2, h99]; omega
    · rw [if_neg h2]
      simp only [BitVec.slt, decide_eq_true_eq, not_lt, h99] at h2
      exact ⟨hy, h2⟩

theorem levels_bounds (n : FVec Ideal SFeat .f32) (i : SFeat.Idx) : 0 ≤ (levels n i).toInt ∧ (levels n i).toInt ≤ 99 :=
  clipWord_bounds _

/-- Python's wrap of a negative index word by the table's 100 rows … -/
def wrapNeg (v : BitVec 32) : BitVec 32 := Scalar.select (IntOp.cmpi .slt v 0#32) (IntOp.addi v 100#32) v
/-- … leaves a nonnegative word alone. -/
theorem wrapNeg_of_nonneg (v : BitVec 32) (h : 0 ≤ v.toInt) : wrapNeg v = v := by
  have h0 : (0#32 : BitVec 32).toInt = 0 := by decide
  have hs : v.slt 0#32 = false := by
    simp only [BitVec.slt, decide_eq_false_iff_not, not_lt, h0]; exact h
  unfold wrapNeg IntOp.cmpi
  simp only [hs]
  exact select_zero _ _

/-! ## Real entries -/

/-- An extended real that is a real number. -/
def IsReal (a : EReal) : Prop := ∃ r : ℝ, a = (r : EReal)

theorem IsReal.sub {a b : EReal} (ha : IsReal a) (hb : IsReal b) : IsReal (a - b) := by
  obtain ⟨r, rfl⟩ := ha; obtain ⟨s, rfl⟩ := hb; exact ⟨r - s, (EReal.coe_sub r s).symm⟩

/-- A broadcast of an array of reals is an array of reals: every entry of it is an entry of the operand. -/
theorem isReal_broadcastInDim {s t : Shape} (dims : Fin s.rank → Fin t.rank) (h : s.BroadcastsInDim t dims)
    (y : s.Idx → EReal) (hy : ∀ k, IsReal (y k)) (j : t.Idx) : IsReal (broadcastInDim t dims h y j) := by
  unfold broadcastInDim; exact hy _

/-- A fold of `min` from `+∞` over finitely many reals, at least one, is one of them. -/
theorem isReal_fold_min {ι : Type*} [DecidableEq ι] (op : EReal → EReal → EReal) [Std.Commutative op] [Std.Associative op]
    (hop : ∀ a b, op a b = min a b) (s : Finset ι) (g : ι → EReal) (hg : ∀ i ∈ s, IsReal (g i)) :
    (s = ∅ ∧ s.fold op ⊤ g = ⊤) ∨ IsReal (s.fold op ⊤ g) := by
  induction s using Finset.induction_on with
  | empty => exact Or.inl ⟨rfl, Finset.fold_empty⟩
  | insert a s ha ih =>
    right
    rw [Finset.fold_insert ha, hop]
    rcases ih (fun i hi => hg i (Finset.mem_insert_of_mem hi)) with h | h
    · rw [h.2, min_top_right]; exact hg a (Finset.mem_insert_self a s)
    · rcases min_choice (g a) (s.fold op ⊤ g) with e | e
      · rw [e]; exact hg a (Finset.mem_insert_self a s)
      · rw [e]; exact h

/-- A fold of `max` from `-∞` over finitely many reals, at least one, is one of them. -/
theorem isReal_fold_max {ι : Type*} [DecidableEq ι] (op : EReal → EReal → EReal) [Std.Commutative op] [Std.Associative op]
    (hop : ∀ a b, op a b = max a b) (s : Finset ι) (g : ι → EReal) (hg : ∀ i ∈ s, IsReal (g i)) :
    (s = ∅ ∧ s.fold op ⊥ g = ⊥) ∨ IsReal (s.fold op ⊥ g) := by
  induction s using Finset.induction_on with
  | empty => exact Or.inl ⟨rfl, Finset.fold_empty⟩
  | insert a s ha ih =>
    right
    rw [Finset.fold_insert ha, hop]
    rcases ih (fun i hi => hg i (Finset.mem_insert_of_mem hi)) with h | h
    · rw [h.2, max_bot_right]; exact hg a (Finset.mem_insert_self a s)
    · rcases max_choice (g a) (s.fold op ⊥ g) with e | e
      · rw [e]; exact hg a (Finset.mem_insert_self a s)
      · rw [e]; exact h

theorem word_top : Ideal.ofBits .f32 0x7F800000#32 = ⊤ := by simp [Ideal.ofBits, Ideal.ieee]
theorem word_bot : Ideal.ofBits .f32 0xFF800000#32 = ⊥ := by simp [Ideal.ofBits, Ideal.ieee]

/-- The floor `ε` of the column range is a positive real. -/
theorem word_eps : Ideal.ofBits .f32 0x358637BD#32 = (((8796093 : ℝ) / 2 ^ 43 : ℝ) : EReal) := by
  simp [Ideal.ofBits, Ideal.ieee, -EReal.coe_mul]; norm_num

theorem univ_rows_ne : (Finset.univ : Finset (Fin (SFeat.size 0))) ≠ ∅ :=
  Finset.ne_empty_of_mem (Finset.mem_univ (⟨0, by decide⟩ : Fin (SFeat.size 0)))

/-- On real features every column minimum is real … -/
theorem colMin_isReal (x : FVec Ideal SFeat .f32) (hx : ∀ i, IsReal (x i)) (k : SCol.Idx) : IsReal (colMin x k) := by
  unfold colMin
  rw [Host.reduce_eq_fold_single FloatOps.minimumf x _ red red' pos0 k]
  rw [show (constant (F := Ideal) S0 .f32 0x7F800000#32) (Shape.Idx.first pos0) = ⊤ from word_top]
  rcases isReal_fold_min (FloatOps.minimumf (F := Ideal) (φ := .f32))
    (fun (a b : EReal) => (rfl : FloatOps.minimumf (F := Ideal) (φ := .f32) a b = min a b))
    Finset.univ (x ∘ red'.lift k) (fun i _ => hx _) with h | h
  · exact absurd h.1 univ_rows_ne
  · exact h

/-- … and every column maximum. -/
theorem colMax_isReal (x : FVec Ideal SFeat .f32) (hx : ∀ i, IsReal (x i)) (k : SCol.Idx) : IsReal (colMax x k) := by
  unfold colMax
  rw [Host.reduce_eq_fold_single FloatOps.maximumf x _ red red' pos0 k]
  rw [show (constant (F := Ideal) S0 .f32 0xFF800000#32) (Shape.Idx.first pos0) = ⊥ from word_bot]
  rcases isReal_fold_max (FloatOps.maximumf (F := Ideal) (φ := .f32))
    (fun (a b : EReal) => (rfl : FloatOps.maximumf (F := Ideal) (φ := .f32) a b = max a b))
    Finset.univ (x ∘ red'.lift k) (fun i _ => hx _) with h | h
  · exact absurd h.1 univ_rows_ne
  · exact h

/-- A real over a real that is at least a positive real is a real. -/
theorem isReal_div {n a : EReal} {e : ℝ} (hn : IsReal n) (ha : IsReal a) (he : 0 < e) : IsReal (Ideal.div n (max a (e : EReal))) := by
  obtain ⟨r, rfl⟩ := hn; obtain ⟨s, rfl⟩ := ha
  have hm : max (s : EReal) (e : EReal) = ((max s e : ℝ) : EReal) :=
    (EReal.coe_strictMono.monotone.map_max (a := s) (b := e)).symm
  have hpos : 0 < max s e := lt_max_of_lt_right he
  rw [hm, Ideal.div_coe hpos.ne']
  exact ⟨r * (1 / max s e), (EReal.coe_mul _ _).symm⟩

/-- An entry of a broadcast is an entry of its operand. -/
theorem broadcastInDim_eq_at {α : Type} {s t : Shape} (dims : Fin s.rank → Fin t.rank) (h : s.BroadcastsInDim t dims)
    (y : s.Idx → α) (j : t.Idx) : ∃ k, broadcastInDim t dims h y j = y k := by
  unfold broadcastInDim; exact ⟨_, rfl⟩

theorem hostDivf_apply {s : Shape} {φ : FTy} (a b : FVec Ideal s φ) (i : s.Idx) : Host.divf a b i = Ideal.div (a i) (b i) := rfl

/-- ON REAL FEATURES THE RESCALED ARRAY IS REAL EVERYWHERE: a real minus a real column minimum, over the maximum of a real
    column range and the positive real `ε`. -/
theorem unitScale_isReal (x : FVec Ideal SFeat .f32) (hx : ∀ i, IsReal (x i)) (i : SFeat.Idx) : IsReal (unitScale x i) := by
  have hmin := fun k => isReal_broadcastInDim (![1] : Fin 1 → Fin SRow.rank) bCR (colMin x) (colMin_isReal x hx) k
  have hmax := fun k => isReal_broadcastInDim (![1] : Fin 1 → Fin SRow.rank) bCR (colMax x) (colMax_isReal x hx) k
  unfold unitScale
  rw [hostDivf_apply, subf_apply]
  obtain ⟨k, hk⟩ := broadcastInDim_eq_at (![0, 1] : Fin 2 → Fin SFeat.rank) bRF
    (maximumf (subf (broadcastInDim SRow ![1] bCR (colMax x)) (broadcastInDim SRow ![1] bCR (colMin x)))
      (broadcastInDim SRow ![] b0R (constant S0 .f32 0x358637BD#32))) i
  rw [hk, maximumf_apply, subf_apply]
  obtain ⟨k', hk'⟩ := broadcastInDim_eq_at (![] : Fin 0 → Fin SRow.rank) b0R (constant (F := Ideal) S0 .f32 0x358637BD#32) k
  rw [hk', constant_apply, word_eps]
  exact isReal_div ((hx i).sub (isReal_broadcastInDim _ bRF _ hmin i)) ((hmax k).sub (hmin k)) (by positivity)

/-- The guard leaves a real entry alone. -/
theorem guard_coe (r : ℝ) : guard (r : EReal) = (r : EReal) := by
  have h1 : Ideal.cmp .une (r : EReal) (r : EReal) = 0#1 := by simp [Ideal.cmp]
  have h2 : Ideal.cmp .oeq (r : EReal) ⊤ = 0#1 := by simp [Ideal.cmp]
  have h3 : Ideal.cmp .oeq (r : EReal) ⊥ = 0#1 := by simp [Ideal.cmp]
  unfold guard
  simp only [Ideal.cmpf_def, word_top, word_bot, h1, h2, h3, select_zero]

/-- SO ON REAL FEATURES THE GUARD CHANGES NOTHING. -/
theorem noNan_unitScale (x : FVec Ideal SFeat .f32) (hx : ∀ i, IsReal (x i)) : noNan (unitScale x) = unitScale x := by
  funext i
  obtain ⟨r, hr⟩ := unitScale_isReal x hx i
  rw [noNan_apply, hr, guard_coe]

/-! ## The bound table: position row times level row -/

/-- Row `100 c + l` of the bound table is the product of row `c` of `P` and row `l` of `W`, entry by entry. -/
def boundTable (W : FVec Ideal SVal .f32) (P : FVec Ideal SPos .f32) : FVec Ideal SBound .bf16 :=
  truncf .bf16
    (shapeCast SBound
      (mulf (broadcastInDim SBound3 ![0, 1, 2] bPB (broadcastInDim SPos3 ![0, 2] bP3 P))
        (broadcastInDim SBound3 ![0, 1, 2] bVB (broadcastInDim SVal3 ![1, 2] bV3 W))) castB) bfLt

/-- The slot of level `l` of channel `c` among the 3200 rows of the bound table. -/
def slot (l : Fin 100) (c : Fin 32) : Fin 3200 := ⟨l.val + 100 * c.val, by have := l.isLt; have := c.isLt; omega⟩

theorem boundTable_apply (W : FVec Ideal SVal .f32) (P : FVec Ideal SPos .f32) (l : Fin 100) (c : Fin 32) (d : Fin 2048) :
    boundTable W P (ix2 (slot l c) d) = P (ix2 c d) * W (ix2 l d) := by
  unfold boundTable
  rw [truncf_apply]
  rw [shapeCast_apply _ castB (ix2 (slot l c) d) (ix3 c l d) (by
    rw [Shape.rowMajor_val_three, Shape.rowMajor_val_two]
    show (c.val * 100 + l.val) * 2048 + d.val = (l.val + 100 * c.val) * 2048 + d.val
    ring)]
  rw [mulf_apply]
  congr 1
  · refine (broadcastInDim_apply _ bPB _ (ix3 c l d) (ix3 c (0 : Fin 1) d) (fun a => ?_)).trans
      (broadcastInDim_apply _ bP3 P (ix3 c (0 : Fin 1) d) (ix2 c d) (fun a => ?_))
    · match a with
      | ⟨0, _⟩ => show c.val = if (32 : Nat) = 1 then 0 else c.val; rw [if_neg (by decide)]
      | ⟨1, _⟩ => show (0 : Nat) = if (1 : Nat) = 1 then 0 else l.val; rw [if_pos rfl]
      | ⟨2, _⟩ => show d.val = if (2048 : Nat) = 1 then 0 else d.val; rw [if_neg (by decide)]
    · match a with
      | ⟨0, _⟩ => show c.val = if (32 : Nat) = 1 then 0 else c.val; rw [if_neg (by decide)]
      | ⟨1, _⟩ => show d.val = if (2048 : Nat) = 1 then 0 else d.val; rw [if_neg (by decide)]
  · refine (broadcastInDim_apply _ bVB _ (ix3 c l d) (ix3 (0 : Fin 1) l d) (fun a => ?_)).trans
      (broadcastInDim_apply _ bV3 W (ix3 (0 : Fin 1) l d) (ix2 l d) (fun a => ?_))
    · match a with
      | ⟨0, _⟩ => show (0 : Nat) = if (1 : Nat) = 1 then 0 else c.val; rw [if_pos rfl]
      | ⟨1, _⟩ => show l.val = if (100 : Nat) = 1 then 0 else l.val; rw [if_neg (by decide)]
      | ⟨2, _⟩ => show d.val = if (2048 : Nat) = 1 then 0 else d.val; rw [if_neg (by decide)]
    · match a with
      | ⟨0, _⟩ => show l.val = if (100 : Nat) = 1 then 0 else l.val; rw [if_neg (by decide)]
      | ⟨1, _⟩ => show d.val = if (2048 : Nat) = 1 then 0 else d.val; rw [if_neg (by decide)]

/-! ## The result -/

/-- The row of the level table a word names: read signed, clamped into `[0, 99]`. -/
def levelRow (e : BitVec 32) : Fin 100 := clampRow 100 (by decide) e

/-- A word already in `[0, 99]` names the row of its own value. -/
theorem levelRow_val (e : BitVec 32) (h0 : 0 ≤ e.toInt) (h99 : e.toInt ≤ 99) : (levelRow e).val = e.toNat := by
  show min e.toInt.toNat (100 - 1) = e.toNat
  have h2 : e.toInt = (e.toNat : ℤ) := by
    rw [BitVec.toInt_eq_toNat_cond]
    split
    · rfl
    · rename_i hc
      have : e.toInt < 0 := by rw [BitVec.toInt_eq_toNat_cond, if_neg hc]; have := e.isLt; omega
      omega
  omega

/-- The bound sum of row `r` at lane `d`: over the 32 channels, the level's row of `W` times the channel's row of `P`. -/
def bindSum (lv : IVec SFeat 32) (W : FVec Ideal SVal .f32) (P : FVec Ideal SPos .f32) (r : Fin 4096) (d : Fin 2048) : EReal :=
  ∑ c : Fin 32, W (ix2 (levelRow (lv (ix2 r c))) d) * P (ix2 c d)

/-- The sign quantisation: `-1` below zero, else `1` (zero included). -/
def quantize (a : Ideal .f32) : Ideal .f32 :=
  Scalar.select (FloatOps.cmpf .olt a (Ideal.ofBits .f32 0x00000000#32)) (Ideal.ofBits .f32 0xBF800000#32)
    (Ideal.ofBits .f32 0x3F800000#32)

/-- THE RESULT ARRAY as one function of the level words and the two tables. -/
def G (lv : IVec SFeat 32) (W : FVec Ideal SVal .f32) (P : FVec Ideal SPos .f32) : FVec Ideal SOut .f32 :=
  fun i => quantize (bindSum lv W P (i 0) (i 1))

end Cert.Embed

end
-- ==== Proof.LibHotSum.lean ====
/-
  A contraction against a matrix of one-hot rows, on the extended reals.

  Let `pos : ι → κ` place each of finitely many items in one of finitely many slots, and let the weight of slot `k`
  be the NUMBER of items placed there, written as a sum of indicators `∑ i, [pos i = k]`. Then the weighted sum
  `∑ k, (∑ i, [pos i = k]) · b k` is the sum of `b` over the items' slots, `∑ i, b (pos i)` — for every extended-real
  `b`, the infinities included, and whether or not two items share a slot. Only two facts about the extended reals
  are used: a product distributes over a sum of NONNEGATIVE terms on the left factor (the indicators are `0` or `1`),
  and `0 · x = 0`, `1 · x = x` at every `x`.
-/
import Idealize.ShloMosaic.PureOps.Ideal

open scoped BigOperators

namespace Cert.HotSum

/-- A sum of nonnegative extended reals times `b` is the sum of the products, at every `b`. -/
theorem sum_mul_of_nonneg {ι : Type*} [DecidableEq ι] (s : Finset ι) (a : ι → EReal) (ha : ∀ i ∈ s, 0 ≤ a i)
    (b : EReal) : (∑ i ∈ s, a i) * b = ∑ i ∈ s, a i * b := by
  induction s using Finset.induction_on with
  | empty => simp
  | insert j s hj ih =>
    rw [Finset.sum_insert hj, Finset.sum_insert hj,
      EReal.right_distrib_of_nonneg (ha j (Finset.mem_insert_self j s))
        (Finset.sum_nonneg fun i hi => ha i (Finset.mem_insert_of_mem hi)),
      ih fun i hi => ha i (Finset.mem_insert_of_mem hi)]

/-- The indicator of `pos i = k` as an extended real is nonnegative. -/
theorem indicator_nonneg {κ : Type*} [DecidableEq κ] (a k : κ) : (0 : EReal) ≤ if a = k then 1 else 0 := by
  by_cases h : a = k
  · rw [if_pos h]; exact zero_le_one
  · rw [if_neg h]

/-- THE ONE-HOT CONTRACTION: weighting slot `k` by the number of items placed there and summing over the slots is
    summing `b` over the items' slots. -/
theorem onehot_contract {ι κ : Type*} [Fintype ι] [Fintype κ] [DecidableEq ι] [DecidableEq κ] (pos : ι → κ)
    (b : κ → EReal) :
    ∑ k, (∑ i, (if pos i = k then (1 : EReal) else 0)) * b k = ∑ i, b (pos i) := by
  calc ∑ k, (∑ i, (if pos i = k then (1 : EReal) else 0)) * b k
      = ∑ k, ∑ i, (if pos i = k then (1 : EReal) else 0) * b k :=
        Finset.sum_congr rfl fun k _ => sum_mul_of_nonneg _ _ (fun i _ => indicator_nonneg (pos i) k) _
    _ = ∑ i, ∑ k, (if pos i = k then (1 : EReal) else 0) * b k := Finset.sum_comm
    _ = ∑ i, b (pos i) := Finset.sum_congr rfl fun i _ => by
        rw [Finset.sum_eq_single (pos i)]
        · rw [if_pos rfl, one_mul]
        · intro k _ hk; rw [if_neg (Ne.symm hk), zero_mul]
        · intro h; exact absurd (Finset.mem_univ _) h

end Cert.HotSum
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.OneHotBody.lean ====
/-
  What the kernel body stores, read at one index.

  At a grid point the body loads a `[256, 32]` block of level words and the whole `[3200, 2048]` bound table. It shifts the
  word of channel `c` by `100 c`, compares each shifted word with the lane number `k < 3200` and adds the 32 comparison
  results: entry `(p, k)` of that matrix counts the channels `c` whose shifted word IS `k`. The matrix is then multiplied
  with the table into a zero accumulator and the product is sign-quantised.
  With every word of row `p` in `[0, 99]` the shifted word of channel `c` is the number `word + 100 c < 3200` — no wrap-around
  in 32 bits — so it names the slot `slot (levelRow word) c`. The count matrix contracted with the table is then, by the
  one-hot contraction (LibHotSum), the sum over the 32 channels of the table's row at the channel's slot.
-/
import proofs.«109464_j38809324486986_2_alg».proof.Proof.Gen.KernelIdeal.Frame
import proofs.«109464_j38809324486986_2_alg».proof.Proof.EmbedSpec
import proofs.«109464_j38809324486986_2_alg».proof.Proof.LibHotSum
import proofs.«109464_j38809324486986_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Embed

theorem hz : (![0, 0] : Fin 2 → Nat) = fun _ => 0 := funext fun a => by fin_cases a <;> rfl

theorem zero_bf16 : FloatOps.ofBits (F := Ideal) .bf16 0#16 = (0 : EReal) := by
  show Ideal.ofBits .bf16 0#16 = 0
  simp [Ideal.ofBits, Ideal.ieee]

/-- A comparison bit that is set converts to `1` … -/
theorem sitofp_one : FloatOps.sitofp (F := Ideal) .f32 ((1#1 : BitVec 1).setWidth 32) = (1 : EReal) := by
  show ((((1#1 : BitVec 1).setWidth 32).toInt : ℝ) : EReal) = 1
  rw [show ((1#1 : BitVec 1).setWidth 32).toInt = 1 by decide]; norm_num
/-- … and one that is clear to `0`. -/
theorem sitofp_zero : FloatOps.sitofp (F := Ideal) .f32 ((0#1 : BitVec 1).setWidth 32) = (0 : EReal) := by
  show ((((0#1 : BitVec 1).setWidth 32).toInt : ℝ) : EReal) = 0
  rw [show ((0#1 : BitVec 1).setWidth 32).toInt = 0 by decide]; norm_num

theorem cmpi_eq_self (a : BitVec 32) : IntOp.cmpi .eq a a = 1#1 := by simp [IntOp.cmpi]
theorem cmpi_eq_of_ne {a b : BitVec 32} (h : a ≠ b) : IntOp.cmpi .eq a b = 0#1 := by
  show BitVec.ofBool (a == b) = 0#1
  rw [beq_eq_false_iff_ne.mpr h]; rfl

/-- Channel `n`'s comparison at `(p, k)`, as a number: `1` when the shifted word of channel `n` in row `p` is `k`, else `0`
    (and `0` for an `n` that is no channel). -/
def hotN (v5 : IVec S256x32 32) (p : Fin 256) (k : Fin 3200) (n : ℕ) : EReal :=
  if h : n < 32 then (if v5 (ix2 p ⟨n, h⟩) = BitVec.ofNat 32 k.val then 1 else 0) else 0

/-- One channel's column of shifted words, spread along the lanes, compared with the lane number and converted: read at
    `(p, k)` it is `hotN`. -/
theorem hot_apply (v5 : IVec S256x32 32) (n : ℕ) (hn : n < 32) (h : S256x32.Slices ![0, n] S256x1)
    (hb : S256x1.Broadcasts S256x3200) (hi : S256x3200.Iotas .tc 32 [1]) (hw : 1 < 32)
    (ht : FTy.bits .bf16 < FTy.bits .f32) (p : Fin 256) (k : Fin 3200) :
    (truncf .bf16 (sitofp .f32 (extui 32 (cmpi .eq (broadcastTo S256x3200 (extractStridedSlice S256x1 ![0, n] v5 h) hb)
      (iota .tc S256x3200 32 [1] hi)) hw)) ht : FVec Ideal S256x3200 .bf16) (ix2 p k) = hotN v5 p k n := by
  have e1 : broadcastTo S256x3200 (extractStridedSlice S256x1 ![0, n] v5 h) hb (ix2 p k) = v5 (ix2 p ⟨n, hn⟩) := by
    refine (broadcastTo_apply _ hb (ix2 p k) (ix2 p (0 : Fin 1)) (fun a => ?_)).trans
      (extractStridedSlice_apply _ v5 h (ix2 p (0 : Fin 1)) (ix2 p ⟨n, hn⟩) (fun a => ?_))
    · match a with
      | ⟨0, _⟩ => show p.val = if (256 : Nat) = 1 then 0 else p.val; rw [if_neg (by decide)]
      | ⟨1, _⟩ => show (0 : Nat) = if (1 : Nat) = 1 then 0 else k.val; rw [if_pos rfl]
    · match a with
      | ⟨0, _⟩ => show p.val = 0 + p.val; omega
      | ⟨1, _⟩ => show n = n + 0; omega
  have e2 : iota .tc S256x3200 32 [1] hi (ix2 p k) = BitVec.ofNat 32 k.val :=
    iota_single_apply .tc S256x3200 32 1 hi (ix2 p k)
  show FloatOps.sitofp (F := Ideal) .f32
    ((IntOp.cmpi .eq (broadcastTo S256x3200 (extractStridedSlice S256x1 ![0, n] v5 h) hb (ix2 p k))
      (iota .tc S256x3200 32 [1] hi (ix2 p k))).setWidth 32) = _
  rw [e1, e2]
  unfold hotN
  rw [dif_pos hn]
  by_cases hc : v5 (ix2 p ⟨n, hn⟩) = BitVec.ofNat 32 k.val
  · rw [if_pos hc, hc, cmpi_eq_self, sitofp_one]
  · rw [if_neg hc, cmpi_eq_of_ne hc, sitofp_zero]

/-- The matrix of comparison counts the body builds from a block `X` of level words. -/
abbrev counts (X : Vec Ideal S256x32 .i32) : FVec Ideal S256x3200 .bf16 :=
  k0_pay9 (k0_pay2 X) (iota .tc S256x3200 32 [1] iota_S256x3200_d1_w32)
    (k0_pay7 (k0_pay2 X) (iota .tc S256x3200 32 [1] iota_S256x3200_d1_w32)
      (k0_pay5 (k0_pay2 X) (iota .tc S256x3200 32 [1] iota_S256x3200_d1_w32) (k0_pay3 X) (k0_pay4 X))
      (k0_pay6 (k0_pay2 X)))
    (k0_pay8 (F := Ideal) (k0_pay2 X) (iota .tc S256x3200 32 [1] iota_S256x3200_d1_w32))

set_option maxHeartbeats 1000000 in
/-- THE COUNTS AT `(p, k)`: the 32 comparisons added up, channel by channel. -/
theorem counts_apply (X : Vec Ideal S256x32 .i32) (p : Fin 256) (k : Fin 3200) :
    counts X (ix2 p k) = ∑ n ∈ Finset.range 32, hotN (k0_pay2 X) p k n := by
  simp only [counts, k0_pay9, k0_pay8, k0_pay7, k0_pay6, k0_pay5, k0_pay4, k0_pay3]
  simp only [addf_apply, broadcast_apply]
  rw [hot_apply (k0_pay2 X) 0 (by decide), hot_apply (k0_pay2 X) 1 (by decide), hot_apply (k0_pay2 X) 2 (by decide), hot_apply (k0_pay2 X) 3 (by decide), hot_apply (k0_pay2 X) 4 (by decide), hot_apply (k0_pay2 X) 5 (by decide), hot_apply (k0_pay2 X) 6 (by decide), hot_apply (k0_pay2 X) 7 (by decide)]
  rw [hot_apply (k0_pay2 X) 8 (by decide), hot_apply (k0_pay2 X) 9 (by decide), hot_apply (k0_pay2 X) 10 (by decide), hot_apply (k0_pay2 X) 11 (by decide), hot_apply (k0_pay2 X) 12 (by decide), hot_apply (k0_pay2 X) 13 (by decide), hot_apply (k0_pay2 X) 14 (by decide), hot_apply (k0_pay2 X) 15 (by decide)]
  rw [hot_apply (k0_pay2 X) 16 (by decide), hot_apply (k0_pay2 X) 17 (by decide), hot_apply (k0_pay2 X) 18 (by decide), hot_apply (k0_pay2 X) 19 (by decide), hot_apply (k0_pay2 X) 20 (by decide), hot_apply (k0_pay2 X) 21 (by decide), hot_apply (k0_pay2 X) 22 (by decide), hot_apply (k0_pay2 X) 23 (by decide)]
  rw [hot_apply (k0_pay2 X) 24 (by decide), hot_apply (k0_pay2 X) 25 (by decide), hot_apply (k0_pay2 X) 26 (by decide), hot_apply (k0_pay2 X) 27 (by decide), hot_apply (k0_pay2 X) 28 (by decide), hot_apply (k0_pay2 X) 29 (by decide), hot_apply (k0_pay2 X) 30 (by decide), hot_apply (k0_pay2 X) 31 (by decide)]
  iterate 32 rw [Finset.sum_range_succ]
  rw [Finset.sum_range_zero, zero_bf16]

/-- The shifted word of channel `c`: the level word plus `100 c`, in 32-bit arithmetic. -/
theorem shifted_apply (X : Vec Ideal S256x32 .i32) (p : Fin 256) (c : Fin 32) :
    k0_pay2 X (ix2 p c) = X (ix2 p c) + 100#32 * BitVec.ofNat 32 c.val := by
  unfold k0_pay2
  rw [shapeCast_self]
  show IntOp.addi (X (ix2 p c)) (IntOp.muli 100#32 (iota .tc S256x32 32 [1] iota_S256x32_d1_w32 (ix2 p c))) = _
  rw [iota_single_apply .tc S256x32 32 1 iota_S256x32_d1_w32 (ix2 p c)]
  rfl

/-- For a level word in `[0, 99]` the shifted word of channel `c` is the lane `k` exactly when `k` is the word's slot. -/
theorem shifted_eq_iff (e : BitVec 32) (h0 : 0 ≤ e.toInt) (h99 : e.toInt ≤ 99) (c : Fin 32) (k : Fin 3200) :
    e + 100#32 * BitVec.ofNat 32 c.val = BitVec.ofNat 32 k.val ↔ slot (levelRow e) c = k := by
  have hl : (levelRow e).val = e.toNat := levelRow_val e h0 h99
  have hle : e.toNat ≤ 99 := by have := (levelRow e).isLt; omega
  have hc := c.isLt
  have hk := k.isLt
  have hv : (e + 100#32 * BitVec.ofNat 32 c.val).toNat = e.toNat + 100 * c.val := by
    rw [BitVec.toNat_add, BitVec.toNat_mul, BitVec.toNat_ofNat, BitVec.toNat_ofNat]
    simp only [Nat.reducePow]
    omega
  have hkn : (BitVec.ofNat 32 k.val).toNat = k.val := by
    rw [BitVec.toNat_ofNat]; simp only [Nat.reducePow]; omega
  constructor
  · intro heq
    have := congrArg BitVec.toNat heq
    rw [hv, hkn] at this
    exact Fin.ext (by show (levelRow e).val + 100 * c.val = k.val; omega)
  · intro heq
    have hs : (levelRow e).val + 100 * c.val = k.val := congrArg Fin.val heq
    exact BitVec.eq_of_toNat_eq (by rw [hv, hkn]; omega)

/-- THE COUNTS AS A ONE-HOT COUNT: with row `p`'s words in `[0, 99]`, entry `(p, k)` counts the channels whose slot is `k`. -/
theorem counts_eq (X : Vec Ideal S256x32 .i32) (p : Fin 256) (k : Fin 3200)
    (hX : ∀ c : Fin 32, 0 ≤ (X (ix2 p c)).toInt ∧ (X (ix2 p c)).toInt ≤ 99) :
    counts X (ix2 p k) = ∑ c : Fin 32, (if slot (levelRow (X (ix2 p c))) c = k then (1 : EReal) else 0) := by
  rw [counts_apply, ← Fin.sum_univ_eq_sum_range (fun n => hotN (k0_pay2 X) p k n) 32]
  refine Finset.sum_congr rfl fun c _ => ?_
  unfold hotN
  rw [dif_pos c.isLt]
  show (if k0_pay2 X (ix2 p c) = BitVec.ofNat 32 k.val then (1 : EReal) else 0) = _
  rw [shifted_apply]
  exact if_congr (shifted_eq_iff _ (hX c).1 (hX c).2 c k) rfl rfl

/-- How the body's dimension record reads its operands: left at `(row, q)`, right at `(q, lane)`. -/
theorem dot_reads : Cert.Lib.PlainDot.Reads (R := 256) (K := 3200) (C := 2048) dot_S256x3200_S3200x2048_S256x2048_1_0_0_1_n_n :=
  ⟨rfl, rfl, fun _ _ => rfl, fun _ _ => rfl, fun _ _ => rfl, fun _ _ => rfl⟩

/-- WHAT THE BODY STORES AT `(p, d)`: the sign quantisation of the sum, over the 32 channels, of the second block's entry
    at the channel's slot, lane `d`. -/
theorem out_apply (x0 : Vec Ideal S256x32 .i32) (x1 : Vec Ideal S3200x2048 .bf16) (p : Fin 256) (d : Fin 2048)
    (hX : ∀ c : Fin 32, 0 ≤ (x0 (ix2 p c)).toInt ∧ (x0 (ix2 p c)).toInt ≤ 99) :
    out0_2 x0 x1 (ix2 p d) = quantize (∑ c : Fin 32, x1 (ix2 (slot (levelRow (x0 (ix2 p c))) c) d)) := by
  unfold out0_2
  rw [View.canon_unit_zero hz]
  simp only [View.ld_unit_zero (S := S256x32) hz, View.ld_unit_zero (S := S3200x2048) hz]
  unfold k0_pay1
  rw [shapeCast_self]
  show quantize (FloatOps.matmul dot_S256x3200_S3200x2048_S256x2048_1_0_0_1_n_n none (counts x0) x1
    (constant S256x2048 .f32 0x00000000#32) (ix2 p d)) = _
  rw [Cert.Lib.PlainDot.matmul_zero_apply dot_reads]
  congr 1
  rw [Finset.sum_congr rfl fun k _ => by rw [counts_eq x0 p k hX]]
  exact Cert.HotSum.onehot_contract (fun c : Fin 32 => slot (levelRow (x0 (ix2 p c))) c) (fun k => x1 (ix2 k d))

end Cert.KernelIdeal.Body

end
-- ==== Proof.KernelEntry.lean ====
/-
  What the kernel's two input windows hold when the region is entered.

  Before the region the program computes, from the argument arrays alone, the array of level words (window 0) and
  the bound table (window 1). Read back operation by operation they are the specification's
  `levels (noNan (unitScale feat))` and `boundTable val_w pos_w`: the same operations in the same order.
-/
import proofs.«109464_j38809324486986_2_alg».proof.Proof.Gen.KernelIdeal.Frame
import proofs.«109464_j38809324486986_2_alg».proof.Proof.EmbedSpec
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo Cert.Embed

variable (m : (ℓ : Loc nD τ sig) → Buf (Elt Ideal) ℓ)

-- the column minimum and maximum are spelt the same on both sides of each equation below: nothing opens them
attribute [local irreducible] Host.reduce

set_option maxRecDepth 16384 in
set_option maxHeartbeats 2000000 in
/-- Window 0's array at region entry: the level words of the guarded, rescaled features. -/
theorem levels_entry (c : Dev nD) :
    (V m c main_v15 : S4096x32.Idx → BitVec 32)
      = levels (noNan (unitScale (m ((c.tc : Thread nD τ).loc main_arg0)))) := by
  dsimp only [Gen.V]
  simp only [hostOps0, hostOps0_1, hostOps0_2, hostOps0_3, hostOps0_4, List.flatten_cons, List.flatten_nil,
    List.append_nil, List.cons_append, List.nil_append]
  after_results_simp
  rfl

set_option maxRecDepth 16384 in
set_option maxHeartbeats 2000000 in
/-- Window 1's array at region entry: the bound table of the two tables. -/
theorem bound_entry (c : Dev nD) :
    (V m c main_v22 : S3200x2048.Idx → Ideal .bf16)
      = boundTable (m ((c.tc : Thread nD τ).loc main_arg1)) (m ((c.tc : Thread nD τ).loc main_arg2)) := by
  dsimp only [Gen.V]
  simp only [hostOps0, hostOps0_1, hostOps0_2, hostOps0_3, hostOps0_4, List.flatten_cons, List.flatten_nil,
    List.append_nil, List.cons_append, List.nil_append]
  after_results_simp
  rfl

end Cert.KernelIdeal.Entry

end
-- ==== Proof.KernelArray.lean ====
/-
  The kernel's result array as one function of the argument arrays.

  Point `t` of the 16-point grid loads rows `256 t … 256 t + 255` of the level words and the whole bound table, and writes
  rows `256 t … 256 t + 255` of the result. Row `p` of what it writes is (OneHotBody) the sign quantisation of the sum
  over the channels of the bound table's entry at the channel's slot, which is (EmbedSpec `boundTable_apply`) the
  position row times the level's row: the specification's `G` at row `256 t + p`. The sixteen blocks tile the array, so
  the array ends holding `G` of the level words and the two tables.
-/
import proofs.«109464_j38809324486986_2_alg».proof.Proof.Gen.KernelIdeal.Value
import proofs.«109464_j38809324486986_2_alg».proof.Proof.OneHotBody
import proofs.«109464_j38809324486986_2_alg».proof.Proof.KernelEntry
import proofs.«109464_j38809324486986_2_alg».proof.Proof.EmbedSpec

set_option maxRecDepth 16384

noncomputable section

open scoped BigOperators

namespace Cert.KernelIdeal.Array

open Cert.KernelIdeal Cert.KernelIdeal.Gen Idealize.ShloMosaic Idealize.ShloMosaic.TcCoe Idealize.SL.Sem
open Idealize.ShloMosaic.ValueIdx Cert.Embed
open Idealize.ShloMosaic.Pipeline (Dat)

variable (m : (ℓ : Loc nD τ sig) → Buf (Elt Ideal) ℓ) (ρ : Dev nD → PrngReg)

/-- The result as the region's inputs determine it: `G` of the guarded level words and the two tables. -/
abbrev result (c : Dev nD) : S4096x2048.Idx → EReal :=
  G (levels (noNan (unitScale (m ((c.tc : Thread nD τ).loc main_arg0)))))
    (m ((c.tc : Thread nD τ).loc main_arg1)) (m ((c.tc : Thread nD τ).loc main_arg2))

/-- The printed index maps over the grid: the level words' and the result's block move down one block of rows per
    point, the bound table's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- ONE POINT'S BLOCK: from a block of level words whose row `p` is row `i₀` of `lv` and a second block that is the bound
    table, the body's result at `(p, d)` is `G` at `i`, for an `i` in lane `d`. -/
theorem point_eq (x0 : Vec Ideal S256x32 .i32) (x1 : Vec Ideal S3200x2048 .bf16) (lv : IVec SFeat 32)
    (W : FVec Ideal SVal .f32) (P : FVec Ideal SPos .f32) (p : Fin 256) (d : Fin 2048) (i : S4096x2048.Idx)
    (hi1 : (i 1).val = d.val)
    (h0 : ∀ c : Fin 32, x0 (ix2 p c) = lv (ix2 (i 0) c))
    (h1 : ∀ (k : Fin 3200) (d : Fin 2048), x1 (ix2 k d) = boundTable W P (ix2 k d))
    (hb : ∀ i', 0 ≤ (lv i').toInt ∧ (lv i').toInt ≤ 99) :
    out0_2 x0 x1 (ix2 p d) = G lv W P i := by
  have hd : d = i 1 := Fin.ext hi1.symm
  rw [Body.out_apply x0 x1 p d (fun c => by rw [h0 c]; exact hb _)]
  show quantize _ = quantize (bindSum lv W P (i 0) (i 1))
  congr 1
  unfold bindSum
  refine Finset.sum_congr rfl fun c _ => ?_
  rw [h1, h0 c, boundTable_apply, hd, mul_comm]

/-- WHAT POINT `t` WRITES BACK is block `t` of the result. -/
theorem flushed_eq (c : Dev nD) (t : Fin cfg0.N) :
    (dats m 0 c).flushed 2 t = ((cfg0.win 2).blk t).view.read (Elt Ideal) (result m c) := by
  rw [Value.flushed2]
  obtain ⟨e0, e1, e2, e3, e4, e5⟩ := idx_facts t
  funext j
  show out0_2 (iblk m c 0 t) (iblk m c 1 t) j = result m c (((cfg0.win 2).blk t).view.emb j)
  obtain ⟨p, d, rfl⟩ : ∃ (p : Fin 256) (d : Fin 2048), j = ix2 p d := ⟨j 0, j 1, eq_ix2 j⟩
  refine point_eq (iblk m c 0 t) (iblk m c 1 t) _ _ _ p d (((cfg0.win 2).blk t).view.emb (ix2 p d)) ?_ ?_ ?_
    (levels_bounds _)
  · show win0_2.index t (1 : Fin 2) * 2048 + 1 * d.val = d.val
    rw [e5]; omega
  · intro c'
    show V m c main_v15 (((cfg0.win 0).blk t).view.emb (ix2 p c')) = _
    rw [Entry.levels_entry]
    congr 1
    funext a; apply Fin.ext
    match a with
    | ⟨0, _⟩ =>
      show win0_0.index t (0 : Fin 2) * 256 + 1 * p.val = win0_2.index t (0 : Fin 2) * 256 + 1 * p.val
      rw [e0, e4]
    | ⟨1, _⟩ =>
      show win0_0.index t (1 : Fin 2) * 32 + 1 * c'.val = c'.val
      rw [e1]; omega
  · intro k d
    show V m c main_v22 (((cfg0.win 1).blk t).view.emb (ix2 k d)) = _
    rw [Entry.bound_entry]
    congr 1
    funext a; apply Fin.ext
    match a with
    | ⟨0, _⟩ =>
      show win0_1.index t (0 : Fin 2) * 3200 + 1 * k.val = k.val
      rw [e2]; omega
    | ⟨1, _⟩ =>
      show win0_1.index t (1 : Fin 2) * 2048 + 1 * d.val = d.val
      rw [e3]; omega

/-- An index of the array is in point `t`'s block iff each coordinate is in the block's range on its axis. -/
theorem mem_blk (t : Fin cfg0.N) (i : S4096x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v23).slice (win0_2.rect t)).set ↔ _
  rw [View.set_slice_whole, Rect.mem_set_unit]
  exact Iff.rfl

/-- Every index of the array is in the block of the point its row belongs to. -/
theorem cover (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  have ht : (i 0).val / 256 < cfg0.N := by show (i 0).val / 256 < 16; omega
  refine ⟨⟨(i 0).val / 256, ht⟩, flush0_2 _, ?_⟩
  rw [mem_blk]
  obtain ⟨-, -, -, -, e4, e5⟩ := idx_facts ⟨(i 0).val / 256, ht⟩
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, ht⟩ (1 : Fin 2) * 2048 ≤ (i 1).val
      ∧ (i 1).val < win0_2.index ⟨(i 0).val / 256, ht⟩ (1 : Fin 2) * 2048 + 2048
    rw [e5]; omega

/-- THE ARRAY after the run is the result. -/
theorem final (c : Dev nD) : (dats m 0 c).arrAt 2 cfg0.N = result m c :=
  (dats m 0 c).arrAt_eq_of_cover 2 (result m c) (fun t _ => flushed_eq m c t) cover

/-- The kernel's run: it ends with the result array at `result`, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Array

end
-- ==== Proof.LibGridGather.lean ====
/-
  Rows of a table picked by a two-axis grid of index words, read at an index.

  `x[idx]` over the rows of an `[R, C]` table at an integer array `idx : [A, B]` (carried as `[A, B, 1]`, one index word
  per grid position) gives an `[A, B, C]` array: at `(a, b, c)` it is the table's row named by the word at `(a, b)`,
  column `c`. The word is read signed and CLAMPED into `[0, R - 1]` (`Cert.RowIndex.clampRow`), as for the one-axis
  row gather this follows; nothing else about the words matters.
-/
import Idealize.ShloMosaic.PureOps.Ideal
import Idealize.ShloMosaic.Lib.ValueIdx
import proofs.«109464_j38809324486986_2_alg».proof.Proof.LibRowIndex

noncomputable section

namespace Cert.GridGather

open Idealize.ShloMosaic Idealize.ShloMosaic.ValueIdx Cert.RowIndex

/-- A gather of whole rows of an `[R, C]` table, the row named by an `[A, B, 1]` array of words. -/
abbrev gridGather (R C A B : Nat)
    (wf : GatherDims.WF ⟨2, ![R, C]⟩ ⟨3, ![A, B, 1]⟩ ⟨3, ![A, B, C]⟩ [2] [0] [] [0] [] 2 ![1, C]) :
    GatherDims ⟨2, ![R, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

variable {R C A B w : Nat}

/-- THE GRID GATHER READ AT `(a, b, c)`: the table at row `clampRow` of the word at `(a, b)`, column `c`. -/
theorem gridGather_apply {α : Type} (hR : 0 < R)
    (wf : GatherDims.WF ⟨2, ![R, C]⟩ ⟨3, ![A, B, 1]⟩ ⟨3, ![A, B, C]⟩ [2] [0] [] [0] [] 2 ![1, C])
    (x : (⟨2, ![R, C]⟩ : Shape).Idx → α) (idx : IVec ⟨3, ![A, B, 1]⟩ w) (a : Fin A) (b : Fin B) (c : Fin C) :
    Host.gather (gridGather R C A B wf) x idx (ix3 a b c)
      = x (ix2 (clampRow R hR (idx (ix3 a b (0 : Fin 1)))) c) := by
  unfold Host.gather
  congr 1
  funext e
  refine Fin.ext ?_
  match e with
  | ⟨0, _⟩ =>
    show (gridGather R C A B wf).start (ix3 a b c) idx 0 + (gridGather R C A B wf).batchCoord (ix3 a b c) 0
      + (gridGather R C A B wf).offCoord (ix3 a b c) 0 = min (idx (ix3 a b (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gridGather R C A B wf).startIndexMap from List.mem_singleton.mpr rfl)]
    have hsi : (gridGather R C A B wf).siIdx (ix3 a b c) ⟨List.idxOf (0 : Fin 2) (gridGather R C A B wf).startIndexMap,
        List.idxOf_lt_length_iff.2 (List.mem_singleton.mpr rfl)⟩ = ix3 a b (0 : Fin 1) := by
      funext g; refine Fin.ext ?_
      match g with
      | ⟨0, _⟩ => rfl
      | ⟨1, _⟩ => rfl
      | ⟨2, _⟩ => rfl
    rw [hsi]
    rfl
  | ⟨1, _⟩ =>
    show (gridGather R C A B wf).start (ix3 a b c) idx 1 + (gridGather R C A B wf).batchCoord (ix3 a b c) 1
      + (gridGather R C A B wf).offCoord (ix3 a b c) 1 = c.val
    rw [GatherDims.batchCoord_eq_zero _ _ _ List.not_mem_nil]
    unfold GatherDims.start
    rw [dif_neg (show ¬ (1 : Fin 2) ∈ (gridGather R C A B wf).startIndexMap from
      (by decide : ¬ (1 : Fin 2) ∈ ([0] : List (Fin 2))))]
    unfold GatherDims.offCoord
    rw [dif_pos (show (1 : Fin 2) ∈ (gridGather R C A B wf).sKept from
      (by decide : (1 : Fin 2) ∈ ([1] : List (Fin 2))))]
    simp only [Nat.zero_add, Nat.add_zero]
    rfl

end Cert.GridGather

end
-- ==== Proof.ReferenceValue.lean ====
/-
  The reference's result array as the specification's function of the argument arrays.

  The reference rescales the features, takes the level words (no guard), wraps negative words by the table's 100 rows
  (idle: the words are in `[0, 99]`), gathers the level rows of `W` by the grid of words, multiplies by the position rows
  of `P` broadcast over the batch, adds over the 32 channels from zero and sign-quantises: `G` of the level words and the
  two tables, read off the program one operation at a time.
-/
import proofs.«109464_j38809324486986_2_alg».proof.Proof.Gen.ReferenceIdeal.Read
import proofs.«109464_j38809324486986_2_alg».proof.Proof.EmbedSpec
import proofs.«109464_j38809324486986_2_alg».proof.Proof.LibGridGather

set_option maxRecDepth 16384

noncomputable section

open scoped BigOperators

namespace Cert.ReferenceIdeal.RefValue

open Cert.ReferenceIdeal Cert.ReferenceIdeal.Gen Cert.ReferenceIdeal.Read Idealize.ShloMosaic
open Idealize.ShloMosaic.ValueIdx Cert.Embed Cert.GridGather Cert.RowIndex

/-- The reference's clipped words are the level words of the rescaled features: the same operations. -/
theorem clipped_eq (x0 : FVec Ideal S4096x32 .f32) : val_main_v14 (F := Ideal) x0 = levels (unitScale x0) := rfl

/-- The wrap of negative words changes nothing: the level words are nonnegative. -/
theorem wrapped_eq (x0 : FVec Ideal S4096x32 .f32) : val_main_v19 (F := Ideal) x0 = levels (unitScale x0) := by
  funext i
  show wrapNeg (val_main_v14 (F := Ideal) x0 i) = _
  rw [clipped_eq]
  exact wrapNeg_of_nonneg _ (levels_bounds _ i).1

/-- The program's gather is the grid gather of rows: the same dimension numbers. -/
theorem gather_record : gather_S100x2048_S4096x32x1_S4096x32x2048_2_0_n_n_0_2_12048
    = gridGather 100 2048 4096 32 gather_S100x2048_S4096x32x1_S4096x32x2048_2_0_n_n_0_2_12048_wf := rfl

/-- The gathered rows: at `(r, c, d)` the level table's row named by the word at `(r, c)`, lane `d`. -/
theorem gathered_apply (x0 : FVec Ideal S4096x32 .f32) (x1 : FVec Ideal S100x2048 .f32) (r : Fin 4096) (c : Fin 32)
    (d : Fin 2048) :
    val_main_v21 (F := Ideal) x0 x1 (ix3 r c d) = x1 (ix2 (levelRow (levels (unitScale x0) (ix2 r c))) d) := by
  have hi : idx_main_v20 (ix3 r c (0 : Fin 1)) = ix2 r c := by
    funext a
    match a with
    | ⟨0, _⟩ => rfl
    | ⟨1, _⟩ => rfl
  unfold val_main_v21
  rw [gather_record, gridGather_apply (R := 100) (by decide), val_main_v20_apply, wrapped_eq, hi]
  rfl

/-- The position rows broadcast over the batch: at `(r, c, d)` the position table at `(c, d)`. -/
theorem posrow_apply (x2 : FVec Ideal S32x2048 .f32) (r : Fin 4096) (c : Fin 32) (d : Fin 2048) :
    val_main_v23 (F := Ideal) x2 (ix3 r c d) = x2 (ix2 c d) := by
  rw [val_main_v23_apply, val_main_v22_apply]
  congr 1
  funext a
  match a with
  | ⟨0, _⟩ => rfl
  | ⟨1, _⟩ => rfl

/-- THE REFERENCE'S RESULT is `G` of the level words of the rescaled features and the two tables. -/
theorem result_eq (x0 : FVec Ideal S4096x32 .f32) (x1 : FVec Ideal S100x2048 .f32) (x2 : FVec Ideal S32x2048 .f32) :
    val_main_v29 (F := Ideal) x0 x1 x2 = G (levels (unitScale x0)) x1 x2 := by
  funext i
  obtain ⟨r, d, rfl⟩ : ∃ (r : Fin 4096) (d : Fin 2048), i = ix2 r d := ⟨i 0, i 1, eq_ix2 i⟩
  rw [val_main_v29_apply, val_main_v28_apply, val_main_v27_apply, val_main_v25_apply]
  show quantize (Ideal.ofBits .f32 0x00000000#32
    + ∑ k : Fin 32, val_main_v24 (F := Ideal) x0 x1 x2 (idx_main_v25 (ix2 r d) k)) = quantize (bindSum _ x1 x2 r d)
  congr 1
  rw [Ideal.ofBits_zero_f32, zero_add]
  unfold bindSum
  refine Finset.sum_congr rfl fun c _ => ?_
  have hi : idx_main_v25 (ix2 r d) c = ix3 r c d := by
    funext a
    match a with
    | ⟨0, _⟩ => rfl
    | ⟨1, _⟩ => rfl
    | ⟨2, _⟩ => rfl
  rw [hi, val_main_v24_apply]
  show val_main_v21 (F := Ideal) x0 x1 (ix3 r c d) * val_main_v23 (F := Ideal) x2 (ix3 r c d) = _
  rw [gathered_apply, posrow_apply]

end Cert.ReferenceIdeal.RefValue

end
-- ==== Proof.FiniteFeatures.lean ====
/-
  What the precondition says of the features: every entry is a real number.

  The precondition is the conjunction of three tests, one per argument array, each "every entry's absolute value is
  below `+∞`". On the extended reals `|a| = max a (-a)` is `+∞` at both infinities, so the first test says that no entry of
  the feature array is infinite.
-/
import proofs.«109464_j38809324486986_2_alg».proof.Pre_finite_inputs
import proofs.«109464_j38809324486986_2_alg».proof.Proof.EmbedSpec
import Idealize.ShloMosaic.Lib.ReduceAll
import Idealize.ShloMosaic.PureOps.Ideal.Laws

noncomputable section

namespace Cert.Pre_finite_inputs.Decode

open Cert.Pre_finite_inputs Idealize.ShloMosaic Idealize.ShloMosaic.ValueIdx Cert.Embed

instance : Subsingleton S_.Idx := ⟨fun _ _ => funext fun d => d.elim0⟩

/-- An extended real whose absolute value is below `+∞` is a real. -/
theorem isReal_of_abs_lt_top (a : EReal)
    (h : Ideal.cmp .olt (max a (-a)) (Ideal.ofBits .f32 0x7F800000#32) = 1#1) : IsReal a := by
  rw [word_top] at h
  induction a using EReal.rec with
  | bot => simp [Ideal.cmp] at h
  | top => simp [Ideal.cmp] at h
  | coe r => exact ⟨r, rfl⟩

variable [Facts]
open Facts

/-- UNDER THE PRECONDITION EVERY FEATURE IS A REAL. -/
theorem feat_isReal (x0 : FVec Ideal S4096x32 .f32) (x1 : FVec Ideal S100x2048 .f32) (x2 : FVec Ideal S32x2048 .f32)
    (h : fn (F := Ideal) x0 x1 x2 = fun _ => 1#1) (i : S4096x32.Idx) : IsReal (x0 i) := by
  have h0 : IntOp.andi (IntOp.andi
      (Host.reduce IntOp.andi (cmpf .olt (Host.absf x0)
        (broadcastInDim S4096x32 ![] bcast_S_S4096x32 (constant S_ .f32 0x7F800000#32)))
        (constantI S_ 1 1#1) reducesTo_S4096x32_S_d0_1 h_S_ ix0) _) _ = 1#1 := congrFun h ix0
  have h3 := (IntOp.andi_eq_one.1 (IntOp.andi_eq_one.1 h0).1).1
  have hv := Host.reduce_andi_all _ _ reducesTo_S4096x32_S_d0_1 h_S_ ix0 h3 i
  exact isReal_of_abs_lt_top (x0 i) hv

end Cert.Pre_finite_inputs.Decode

end
-- ==== Proof.lean ====
/- The proof of `Cert.Claim` (proofs.«109464_j38809324486986_2_alg».proof.Defs).

   Both programs compute a hyperdimensional embedding of a feature array: each feature is rescaled by its column's
   minimum and range over the batch and turned into a level word in `[0, 99]`; a row of the result adds, over the 32
   channels, the level's row of one table times the channel's row of another, and keeps the sign of the sum.
   The reference gathers the level rows and multiplies. The kernel multiplies the two tables into one table of 3200 rows
   beforehand, builds for each row of the batch the 0/1 matrix that marks each channel's slot among the 3200, and
   contracts it with that table: a sum that picks, for each channel, exactly the product the reference forms
   (Proof/LibHotSum.lean, Proof/OneHotBody.lean). Both are the function `Cert.Embed.G` (Proof/EmbedSpec.lean) of the
   level words and the tables: Proof/KernelArray.lean for the kernel, Proof/ReferenceValue.lean for the reference.
   The kernel alone passes the rescaled features through a guard against infinite entries; on finite features the
   rescaled features are real numbers and the guard is idle (`Cert.Embed.noNan_unitScale`, fed by
   Proof/FiniteFeatures.lean): the one use of the precondition. -/
import proofs.«109464_j38809324486986_2_alg».proof.Defs
import proofs.«109464_j38809324486986_2_alg».proof.Proof.Gen.Kernel
import proofs.«109464_j38809324486986_2_alg».proof.Proof.Gen.Kernel.Skeleton
import proofs.«109464_j38809324486986_2_alg».proof.Proof.Gen.Kernel.Launch
import proofs.«109464_j38809324486986_2_alg».proof.Proof.Gen.Kernel.Points
import proofs.«109464_j38809324486986_2_alg».proof.Proof.Gen.Kernel.Frame
import proofs.«109464_j38809324486986_2_alg».proof.Proof.Gen.KernelIdeal
import proofs.«109464_j38809324486986_2_alg».proof.Proof.Gen.KernelIdeal.Skeleton
import proofs.«109464_j38809324486986_2_alg».proof.Proof.Gen.KernelIdeal.Launch
import proofs.«109464_j38809324486986_2_alg».proof.Proof.Gen.KernelIdeal.Points
import proofs.«109464_j38809324486986_2_alg».proof.Proof.Gen.KernelIdeal.Frame
import proofs.«109464_j38809324486986_2_alg».proof.Proof.Gen.ReferenceIdeal
import proofs.«109464_j38809324486986_2_alg».proof.Proof.Gen.KernelIdeal.Value
import proofs.«109464_j38809324486986_2_alg».proof.Proof.Gen.ReferenceIdeal.Run
import proofs.«109464_j38809324486986_2_alg».proof.Proof.Gen.ReferenceIdeal.Read
import proofs.«109464_j38809324486986_2_alg».proof.Proof.Gen.Pre_finite_inputs
import proofs.«109464_j38809324486986_2_alg».proof.Proof.KernelArray
import proofs.«109464_j38809324486986_2_alg».proof.Proof.ReferenceValue
import proofs.«109464_j38809324486986_2_alg».proof.Proof.FiniteFeatures
import Idealize.ShloMosaic.Adequacy
import Idealize.ShloMosaic.Init

set_option maxRecDepth 16384

noncomputable section

namespace Cert.Proof

open Idealize.ShloMosaic Idealize.SL.Sem Cert.Embed

/-- The word-level kernel runs and leaves its arguments alone (generated frame). -/
theorem frame_kernel : @Cert.frame_Kernel Cert.Kernel.Gen.facts Cert.Pre_finite_inputs.Gen.facts :=
  fun m ρ _ => Cert.Kernel.Gen.frame m ρ

/-- So does the idealized kernel (generated frame). -/
theorem frame_kernelIdeal : @Cert.frame_KernelIdeal Cert.KernelIdeal.Gen.facts Cert.Pre_finite_inputs.Gen.facts :=
  fun m ρ _ => Cert.KernelIdeal.Gen.frame m ρ

/-- The reference's frame is its generated run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result array at `G` of the level words of the rescaled features and the two tables: the
    kernel's guarded level words are those words because the features are finite. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => G (levels (unitScale (m ((c.tc : Thread Cert.KernelIdeal.nD Cert.KernelIdeal.τ).loc Cert.KernelIdeal.main_arg0))))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Array.run m ρ)
    show G (levels (noNan (unitScale _))) _ _ = _
    rw [noNan_unitScale _ (Cert.Pre_finite_inputs.Decode.feat_isReal _ _ _ (hpre c))]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
